-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S150000x64 : Shape := ⟨2, ![150000, 64]⟩
abbrev S65536 : Shape := ⟨1, ![65536]⟩
abbrev S3200000 : Shape := ⟨1, ![3200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_

variable [Facts]

def fn {F : FTy → Type} [FloatOps F] (main_arg0 : FVec F S100000x64 .f32) (main_arg1 : FVec F S150000x64 .f32) (main_arg2 : IVec S65536 32) (main_arg3 : IVec S65536 32) (main_arg4 : IVec S3200000 32) (main_arg5 : IVec S3200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  main_v8
-- ==== Kernel.lean ====
abbrev S100000x64 : Shape := ⟨2, ![100000, 64]⟩
abbrev S150000x64 : Shape := ⟨2, ![150000, 64]⟩
abbrev S65536 : Shape := ⟨1, ![65536]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S150000 : Shape := ⟨1, ![150000]⟩
abbrev S3200000x64 : Shape := ⟨2, ![3200000, 64]⟩
abbrev S150000x1 : Shape := ⟨2, ![150000, 1]⟩
abbrev S5000x64 : Shape := ⟨2, ![5000, 64]⟩
abbrev S5000x1 : Shape := ⟨2, ![5000, 1]⟩
abbrev S100000x1 : Shape := ⟨2, ![100000, 1]⟩
abbrev S65536x1 : Shape := ⟨2, ![65536, 1]⟩
abbrev S65536x64 : Shape := ⟨2, ![65536, 64]⟩
abbrev S8192x64 : Shape := ⟨2, ![8192, 64]⟩
abbrev S8192x1 : Shape := ⟨2, ![8192, 1]⟩
abbrev S8192 : Shape := ⟨1, ![8192]⟩

abbrev nBuf : Space → Nat
  | .hbm => 148
  | .vmem => 42
  | .smem => 0
  | _ => 0

abbrev hbmTy0_0 (i : Nat) : BufTy := match i % 128 with
  | 0 => ⟨S100000x64, .f32⟩
  | 1 => ⟨S150000x64, .f32⟩
  | 2 => ⟨S65536, .i32⟩
  | 3 => ⟨S65536, .i32⟩
  | 4 => ⟨S3200000, .i32⟩
  | 5 => ⟨S3200000, .i32⟩
  | 6 => ⟨S_, .f32⟩
  | 7 => ⟨S3200000, .f32⟩
  | 8 => ⟨S_, .f32⟩
  | 9 => ⟨S100000, .f32⟩
  | 10 => ⟨S3200000x1, .i32⟩
  | 11 => ⟨S100000, .f32⟩
  | 12 => ⟨S_, .f32⟩
  | 13 => ⟨S150000, .f32⟩
  | 14 => ⟨S3200000x1, .i32⟩
  | 15 => ⟨S150000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S150000, .f32⟩
  | 25 => ⟨S150000, .f32⟩
  | 26 => ⟨S150000, .f32⟩
  | 27 => ⟨S_, .f32⟩
  | 28 => ⟨S150000, .f32⟩
  | 29 => ⟨S150000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .f32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S_, .f32⟩
  | 52 => ⟨S3200000, .f32⟩
  | 53 => ⟨S3200000, .f32⟩
  | 54 => ⟨S3200000, .f32⟩
  | 55 => ⟨S3200000, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x64, .f32⟩
  | 65 => ⟨S3200000x1, .f32⟩
  | 66 => ⟨S3200000x64, .f32⟩
  | 67 => ⟨S3200000x64, .f32⟩
  | 68 => ⟨S_, .f32⟩
  | 69 => ⟨S150000x64, .f32⟩
  | 70 => ⟨S3200000x1, .i32⟩
  | 71 => ⟨S150000x64, .f32⟩
  | 72 => ⟨S150000x1, .f32⟩
  | 73 => ⟨S150000x64, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x64, .f32⟩
  | 83 => ⟨S3200000x1, .f32⟩
  | 84 => ⟨S3200000x64, .f32⟩
  | 85 => ⟨S3200000x64, .f32⟩
  | 86 => ⟨S_, .f32⟩
  | 87 => ⟨S100000x64, .f32⟩
  | 88 => ⟨S3200000x1, .i32⟩
  | 89 => ⟨S100000x64, .f32⟩
  | 90 => ⟨S100000x1, .f32⟩
  | 91 => ⟨S100000x64, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S3200000x1, .f32⟩
  | 102 => ⟨S3200000x64, .f32⟩
  | 103 => ⟨S3200000x64, .f32⟩
  | 104 => ⟨S_, .f32⟩
  | 105 => ⟨S150000x64, .f32⟩
  | 106 => ⟨S3200000x1, .i32⟩
  | 107 => ⟨S150000x64, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x64, .f32⟩
  | 117 => ⟨S3200000x1, .f32⟩
  | 118 => ⟨S3200000x64, .f32⟩
  | 119 => ⟨S3200000x64, .f32⟩
  | 120 => ⟨S_, .f32⟩
  | 121 => ⟨S100000x64, .f32⟩
  | 122 => ⟨S3200000x1, .i32⟩
  | 123 => ⟨S100000x64, .f32⟩
  | 124 => ⟨S100000x1, .f32⟩
  | 125 => ⟨S100000x64, .f32⟩
  | 126 => ⟨S150000x1, .f32⟩
  | 127 => ⟨S150000x64, .f32⟩
  | _ => ⟨S100000x64, .f32⟩

abbrev hbmTy0_1 (i : Nat) : BufTy := match i % 128 with
  | 0 => ⟨S_, .i32⟩
  | 1 => ⟨S65536, .i32⟩
  | 2 => ⟨S65536, .i1⟩
  | 3 => ⟨S_, .i32⟩
  | 4 => ⟨S65536, .i32⟩
  | 5 => ⟨S65536, .i32⟩
  | 6 => ⟨S65536, .i32⟩
  | 7 => ⟨S65536x1, .i32⟩
  | 8 => ⟨S65536x64, .f32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S65536x64, .f32⟩
  | 18 => ⟨S65536x1, .f32⟩
  | 19 => ⟨S65536, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S8192x64, .f32⟩
  | .local _ .vmem, ⟨37, _⟩ => ⟨S8192x64, .f32⟩
  | .local _ .vmem, ⟨38, _⟩ => ⟨S8192x64, .f32⟩
  | .local _ .vmem, ⟨39, _⟩ => ⟨S8192x64, .f32⟩
  | .local _ .vmem, ⟨40, _⟩ => ⟨S8192x1, .f32⟩
  | .local _ .vmem, ⟨41, _⟩ => ⟨S8192x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_c_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_14 : Ref sig .tc := ⟨.hbm, 74, rfl⟩
abbrev main_v52 : Ref sig .tc := ⟨.hbm, 75, rfl⟩
abbrev main_v53 : Ref sig .tc := ⟨.hbm, 76, rfl⟩
abbrev main_c_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_v68 : Ref sig .tc := ⟨.hbm, 94, rfl⟩
abbrev main_c_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_20 : Ref sig .tc := ⟨.hbm, 108, rfl⟩
abbrev main_v80 : Ref sig .tc := ⟨.hbm, 109, rfl⟩
abbrev main_v81 : Ref sig .tc := ⟨.hbm, 110, rfl⟩
abbrev main_c_21 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_22 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_23 : Ref sig .tc := ⟨.hbm, 128, rfl⟩
abbrev main_v97 : Ref sig .tc := ⟨.hbm, 129, rfl⟩
abbrev main_v98 : Ref sig .tc := ⟨.hbm, 130, rfl⟩
abbrev main_c_24 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_25 : Ref sig .tc := ⟨.hbm, 137, rfl⟩
abbrev main_v104 : Ref sig .tc := ⟨.hbm, 138, rfl⟩
abbrev main_v105 : Ref sig .tc := ⟨.hbm, 139, rfl⟩
abbrev main_c_26 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S150000 : S_.BroadcastsInDim S150000 (![] : Fin 0 → Fin S150000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  shapeCasts_S150000_S150000x1 : S150000.ShapeCasts S150000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  shapeCasts_S5000x64_S5000x64 : S5000x64.ShapeCasts S5000x64
  bcast_S_S100000x64 : S_.BroadcastsInDim S100000x64 (![] : Fin 0 → Fin S100000x64.rank)
  shapeCasts_S100000_S100000x1 : S100000.ShapeCasts S100000x1
  bcast_S_S65536 : S_.BroadcastsInDim S65536 (![] : Fin 0 → Fin S65536.rank)
  bcast_S65536_S65536x1_0 : S65536.BroadcastsInDim S65536x1 (![0] : Fin 1 → Fin S65536x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S65536x1_S65536 : S65536x1.ShapeCasts S65536
  scatter_S100000_S3200000x1_S3200000_n_0_0_1_wf : ScatterDims.WF S100000 S3200000x1 S3200000 [] [0] [0] 1
  scatter_S150000_S3200000x1_S3200000_n_0_0_1_wf : ScatterDims.WF S150000 S3200000x1 S3200000 [] [0] [0] 1
  gather_S100000_S3200000x1_S3200000_n_0_n_n_0_1_1_wf : GatherDims.WF S100000 S3200000x1 S3200000 [] [0] [] [0] [] 1 ![1]
  gather_S150000_S3200000x1_S3200000_n_0_n_n_0_1_1_wf : GatherDims.WF S150000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S150000x64_S3200000x1_S3200000x64_1_0_0_1_wf : ScatterDims.WF S150000x64 S3200000x1 S3200000x64 [1] [0] [0] 1
  gather_S150000x64_S3200000x1_S3200000x64_1_0_n_n_0_1_164_wf : GatherDims.WF S150000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S65536x1_S65536x64_1_0_n_n_0_1_164_wf : GatherDims.WF S100000x64 S65536x1 S65536x64 [1] [0] [] [0] [] 1 ![1, 64]
  gather_S150000x64_S65536x1_S65536x64_1_0_n_n_0_1_164_wf : GatherDims.WF S150000x64 S65536x1 S65536x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S150000x1.size a
  hwx0_1 : ∀ i : grid0.Coords, EltTy.bits .f32 = 32 ∨ (Rect.block (s := S150000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S150000x1.size a
  hwx3_2 : ∀ i : grid3.Coords, EltTy.bits .f32 = 32 ∨ (Rect.block (s := S150000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S65536x64.size a
  hwx4_0 : ∀ i : grid4.Coords, EltTy.bits .f32 = 32 ∨ (Rect.block (s := S65536x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S65536x64.size a
  hwx4_1 : ∀ i : grid4.Coords, EltTy.bits .f32 = 32 ∨ (Rect.block (s := S65536x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x1.size a ≤ S65536x1.size a
  hwx4_2 : ∀ i : grid4.Coords, EltTy.bits .f32 = 32 ∨ (Rect.block (s := S65536x1) S8192x1.size (cc4_transform_2 i) (hinb4_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S150000_S3200000x1_S3200000_n_0_0_1 : ScatterDims S150000 S3200000x1 S3200000 where
  updateWindowDims := []
  insertedWindowDims := [0]
  scatterDimsToOperandDims := [0]
  indexVectorDim := 1
  wf := scatter_S150000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S150000_S3200000x1_S3200000_n_0_n_n_0_1_1 : GatherDims S150000 S3200000x1 S3200000 where
  offsetDims := []
  collapsedSliceDims := [0]
  operandBatchingDims := []
  startIndicesBatchingDims := []
  startIndexMap := [0]
  indexVectorDim := 1
  sliceSizes := ![1]
  wf := gather_S150000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def gather_S150000x64_S65536x1_S65536x64_1_0_n_n_0_1_164 : GatherDims S150000x64 S65536x1 S65536x64 where
  offsetDims := [1]
  collapsedSliceDims := [0]
  operandBatchingDims := []
  startIndicesBatchingDims := []
  startIndexMap := [0]
  indexVectorDim := 1
  sliceSizes := ![1, 64]
  wf := gather_S150000x64_S65536x1_S65536x64_1_0_n_n_0_1_164_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v66) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v93) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v92) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v94) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v96) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v103) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v111) S8192x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S150000x64 : Shape := ⟨2, ![150000, 64]⟩
abbrev S65536 : Shape := ⟨1, ![65536]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S150000 : Shape := ⟨1, ![150000]⟩
abbrev S100000x1 : Shape := ⟨2, ![100000, 1]⟩
abbrev S150000x1 : Shape := ⟨2, ![150000, 1]⟩
abbrev S3200000x64 : Shape := ⟨2, ![3200000, 64]⟩
abbrev S65536x1 : Shape := ⟨2, ![65536, 1]⟩
abbrev S65536x64 : Shape := ⟨2, ![65536, 64]⟩

abbrev nBuf : Space → Nat
  | .hbm => 167
  | .vmem => 0
  | .smem => 0
  | _ => 0

abbrev hbmTy0_0 (i : Nat) : BufTy := match i % 128 with
  | 0 => ⟨S100000x64, .f32⟩
  | 1 => ⟨S150000x64, .f32⟩
  | 2 => ⟨S65536, .i32⟩
  | 3 => ⟨S65536, .i32⟩
  | 4 => ⟨S3200000, .i32⟩
  | 5 => ⟨S3200000, .i32⟩
  | 6 => ⟨S_, .f32⟩
  | 7 => ⟨S3200000, .f32⟩
  | 8 => ⟨S_, .f32⟩
  | 9 => ⟨S100000, .f32⟩
  | 10 => ⟨S3200000x1, .i32⟩
  | 11 => ⟨S100000, .f32⟩
  | 12 => ⟨S_, .f32⟩
  | 13 => ⟨S150000, .f32⟩
  | 14 => ⟨S3200000x1, .i32⟩
  | 15 => ⟨S150000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .f32⟩
  | 25 => ⟨S150000, .f32⟩
  | 26 => ⟨S150000, .f32⟩
  | 27 => ⟨S150000, .f32⟩
  | 28 => ⟨S_, .f32⟩
  | 29 => ⟨S150000, .f32⟩
  | 30 => ⟨S150000, .f32⟩
  | 31 => ⟨S150000x1, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S_, .f32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S_, .f32⟩
  | 54 => ⟨S3200000, .f32⟩
  | 55 => ⟨S3200000, .f32⟩
  | 56 => ⟨S3200000, .f32⟩
  | 57 => ⟨S3200000, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x64, .f32⟩
  | 67 => ⟨S3200000x1, .f32⟩
  | 68 => ⟨S3200000x64, .f32⟩
  | 69 => ⟨S3200000x64, .f32⟩
  | 70 => ⟨S150000x64, .f32⟩
  | 71 => ⟨S150000x64, .f32⟩
  | 72 => ⟨S_, .f32⟩
  | 73 => ⟨S150000x64, .f32⟩
  | 74 => ⟨S3200000x1, .i32⟩
  | 75 => ⟨S150000x64, .f32⟩
  | 76 => ⟨S150000x64, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x1, .f32⟩
  | 87 => ⟨S3200000x64, .f32⟩
  | 88 => ⟨S3200000x64, .f32⟩
  | 89 => ⟨S100000x64, .f32⟩
  | 90 => ⟨S100000x64, .f32⟩
  | 91 => ⟨S_, .f32⟩
  | 92 => ⟨S100000x64, .f32⟩
  | 93 => ⟨S3200000x1, .i32⟩
  | 94 => ⟨S100000x64, .f32⟩
  | 95 => ⟨S100000x64, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x64, .f32⟩
  | 105 => ⟨S3200000x1, .f32⟩
  | 106 => ⟨S3200000x64, .f32⟩
  | 107 => ⟨S3200000x64, .f32⟩
  | 108 => ⟨S150000x64, .f32⟩
  | 109 => ⟨S150000x64, .f32⟩
  | 110 => ⟨S_, .f32⟩
  | 111 => ⟨S150000x64, .f32⟩
  | 112 => ⟨S3200000x1, .i32⟩
  | 113 => ⟨S150000x64, .f32⟩
  | 114 => ⟨S150000x64, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x64, .f32⟩
  | 124 => ⟨S3200000x1, .f32⟩
  | 125 => ⟨S3200000x64, .f32⟩
  | 126 => ⟨S3200000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S3200000x1, .i32⟩
  | 4 => ⟨S100000x64, .f32⟩
  | 5 => ⟨S100000x64, .f32⟩
  | 6 => ⟨S100000x64, .f32⟩
  | 7 => ⟨S100000x64, .f32⟩
  | 8 => ⟨S150000x64, .f32⟩
  | 9 => ⟨S150000x64, .f32⟩
  | 10 => ⟨S_, .i32⟩
  | 11 => ⟨S65536, .i32⟩
  | 12 => ⟨S65536, .i1⟩
  | 13 => ⟨S_, .i32⟩
  | 14 => ⟨S65536, .i32⟩
  | 15 => ⟨S65536, .i32⟩
  | 16 => ⟨S65536, .i32⟩
  | 17 => ⟨S65536x1, .i32⟩
  | 18 => ⟨S65536x64, .f32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S65536x64, .f32⟩
  | 28 => ⟨S65536x64, .f32⟩
  | 29 => ⟨S_, .f32⟩
  | 30 => ⟨S65536, .f32⟩
  | 31 => ⟨S65536, .f32⟩
  | 32 => ⟨S65536, .f32⟩
  | 33 => ⟨S_, .f32⟩
  | 34 => ⟨S65536, .f32⟩
  | 35 => ⟨S65536, .f32⟩
  | 36 => ⟨S_, .f32⟩
  | 37 => ⟨S65536, .f32⟩
  | 38 => ⟨S65536, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_11 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_c_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_17 : Ref sig .tc := ⟨.hbm, 96, rfl⟩
abbrev main_v71 : Ref sig .tc := ⟨.hbm, 97, rfl⟩
abbrev main_v72 : Ref sig .tc := ⟨.hbm, 98, rfl⟩
abbrev main_c_18 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_20 : Ref sig .tc := ⟨.hbm, 115, rfl⟩
abbrev main_v87 : Ref sig .tc := ⟨.hbm, 116, rfl⟩
abbrev main_v88 : Ref sig .tc := ⟨.hbm, 117, rfl⟩
abbrev main_c_21 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_23 : Ref sig .tc := ⟨.hbm, 138, rfl⟩
abbrev main_v107 : Ref sig .tc := ⟨.hbm, 139, rfl⟩
abbrev main_v108 : Ref sig .tc := ⟨.hbm, 140, rfl⟩
abbrev main_c_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_25 : Ref sig .tc := ⟨.hbm, 147, rfl⟩
abbrev main_v114 : Ref sig .tc := ⟨.hbm, 148, rfl⟩
abbrev main_v115 : Ref sig .tc := ⟨.hbm, 149, rfl⟩
abbrev main_c_26 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_27 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_28 : Ref sig .tc := ⟨.hbm, 161, rfl⟩
abbrev main_v125 : Ref sig .tc := ⟨.hbm, 162, rfl⟩
abbrev main_v126 : Ref sig .tc := ⟨.hbm, 163, rfl⟩
abbrev main_cst_29 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S150000 : S_.BroadcastsInDim S150000 (![] : Fin 0 → Fin S150000.rank)
  bcast_S100000_S100000x1_0 : S100000.BroadcastsInDim S100000x1 (![0] : Fin 1 → Fin S100000x1.rank)
  bcast_S150000_S150000x1_0 : S150000.BroadcastsInDim S150000x1 (![0] : Fin 1 → Fin S150000x1.rank)
  bcast_S3200000x1_S3200000x64_0_1 : S3200000x1.BroadcastsInDim S3200000x64 (![0, 1] : Fin 2 → Fin S3200000x64.rank)
  bcast_S150000x1_S150000x64_0_1 : S150000x1.BroadcastsInDim S150000x64 (![0, 1] : Fin 2 → Fin S150000x64.rank)
  bcast_S_S150000x64 : S_.BroadcastsInDim S150000x64 (![] : Fin 0 → Fin S150000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  h_S_ : 0 < S_.numel
  scatter_S100000_S3200000x1_S3200000_n_0_0_1_wf : ScatterDims.WF S100000 S3200000x1 S3200000 [] [0] [0] 1
  scatter_S150000_S3200000x1_S3200000_n_0_0_1_wf : ScatterDims.WF S150000 S3200000x1 S3200000 [] [0] [0] 1
  gather_S100000_S3200000x1_S3200000_n_0_n_n_0_1_1_wf : GatherDims.WF S100000 S3200000x1 S3200000 [] [0] [] [0] [] 1 ![1]
  gather_S150000_S3200000x1_S3200000_n_0_n_n_0_1_1_wf : GatherDims.WF S150000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S150000x64_S3200000x1_S3200000x64_1_0_0_1_wf : ScatterDims.WF S150000x64 S3200000x1 S3200000x64 [1] [0] [0] 1
  gather_S150000x64_S3200000x1_S3200000x64_1_0_n_n_0_1_164_wf : GatherDims.WF S150000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S65536x1_S65536x64_1_0_n_n_0_1_164_wf : GatherDims.WF S100000x64 S65536x1 S65536x64 [1] [0] [] [0] [] 1 ![1, 64]
  gather_S150000x64_S65536x1_S65536x64_1_0_n_n_0_1_164_wf : GatherDims.WF S150000x64 S65536x1 S65536x64 [1] [0] [] [0] [] 1 ![1, 64]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S150000_S3200000x1_S3200000_n_0_0_1 : ScatterDims S150000 S3200000x1 S3200000 where
  updateWindowDims := []
  insertedWindowDims := [0]
  scatterDimsToOperandDims := [0]
  indexVectorDim := 1
  wf := scatter_S150000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S150000_S3200000x1_S3200000_n_0_n_n_0_1_1 : GatherDims S150000 S3200000x1 S3200000 where
  offsetDims := []
  collapsedSliceDims := [0]
  operandBatchingDims := []
  startIndicesBatchingDims := []
  startIndexMap := [0]
  indexVectorDim := 1
  sliceSizes := ![1]
  wf := gather_S150000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def gather_S150000x64_S65536x1_S65536x64_1_0_n_n_0_1_164 : GatherDims S150000x64 S65536x1 S65536x64 where
  offsetDims := [1]
  collapsedSliceDims := [0]
  operandBatchingDims := []
  startIndicesBatchingDims := []
  startIndexMap := [0]
  indexVectorDim := 1
  sliceSizes := ![1, 64]
  wf := gather_S150000x64_S65536x1_S65536x64_1_0_n_n_0_1_164_wf

class Facts : Prop extends Facts₀ where

variable [Facts]
-- ==== Proof.KernelRun.lean ====
/-
  The idealized kernel's run with its results named.  The program is eleven segments — six stretches of
  host operations and five tiled regions between them — and the buffer contents at each segment boundary
  are a fold from the launch memory (`W0` … `W11`).  The run of the segments ends with every unscoped
  buffer at the last boundary's contents, so each result buffer ends at `W11` read at that buffer, and
  each argument as launched.
-/
import proofs.«137178_j90391881711984_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, each result buffer at the last
    boundary's contents and each argument as launched. -/
theorem run : θ_run defs (onTc (τ := τ) (main (F := F))) ⟨m, fun _ => 0, ρ⟩ (fun r => ∀ c : Dev nD,
      r.2.mem ((c.tc : Thread nD τ).loc main_v112) = W11 m ρ c (Proc.devRef .tc main_v112)
      ∧ r.2.mem ((c.tc : Thread nD τ).loc main_v103) = W11 m ρ c (Proc.devRef .tc main_v103)
      ∧ r.2.mem ((c.tc : Thread nD τ).loc main_v110) = W11 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v112 (by decide)),
       h c _ (mem_uc main_v103 (by decide)),
       h c _ (mem_uc main_v110 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Run

end
-- ==== Proof.Walk.lean ====
/- A buffer of the idealized kernel's @main keeps its contents across a stretch of host operations that does not
   write it, and across a region of which it is no window or only an input window.  Each theorem follows one buffer
   back from one segment boundary to an earlier one, a step per segment. -/
import proofs.«137178_j90391881711984_2_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem
open Idealize.ShloMosaic.Pipeline (Dat)
open Cert.KernelIdeal Cert.KernelIdeal.Gen

/-- A stretch of host operations keeps a buffer none of its operations writes. -/
macro "keep_host" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

theorem arg1_1_0 : W1 m ρ c (Proc.devRef .tc main_arg1) = W0 m ρ c (Proc.devRef .tc main_arg1) :=
  calc W1 m ρ c (Proc.devRef .tc main_arg1)
    _ = W0 m ρ c (Proc.devRef .tc main_arg1) := by keep_host hostOps0

theorem arg1_2_0 : W2 m ρ c (Proc.devRef .tc main_arg1) = W0 m ρ c (Proc.devRef .tc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := by keep_host hostOps0

theorem arg4_2_0 : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by keep_host hostOps0

theorem arg5_2_0 : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := by keep_host hostOps0

theorem v36_2_1 : W2 m ρ c (Proc.devRef .tc main_v36) = W1 m ρ c (Proc.devRef .tc main_v36) :=
  calc W2 m ρ c (Proc.devRef .tc main_v36)
    _ = W1 m ρ c (Proc.devRef .tc main_v36) := W2_of_ne m ρ c main_v36 (by decide)

theorem v11_2_1 : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

theorem arg0_3_0 : W3 m ρ c (Proc.devRef .tc main_arg0) = W0 m ρ c (Proc.devRef .tc main_arg0) :=
  calc W3 m ρ c (Proc.devRef .tc main_arg0)
    _ = W2 m ρ c (Proc.devRef .tc main_arg0) := by keep_host hostOps1
    _ = W1 m ρ c (Proc.devRef .tc main_arg0) := W2_of_ne m ρ c main_arg0 (by decide)
    _ = W0 m ρ c (Proc.devRef .tc main_arg0) := by keep_host hostOps0

theorem arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host hostOps1
    _ = W1 m ρ c (Proc.devRef .tc main_arg4) := W2_of_ne m ρ c main_arg4 (by decide)
    _ = W0 m ρ c (Proc.devRef .tc main_arg4) := by keep_host hostOps0

theorem arg5_4_0 : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keep_host hostOps1
    _ = W1 m ρ c (Proc.devRef .tc main_arg5) := W2_of_ne m ρ c main_arg5 (by decide)
    _ = W0 m ρ c (Proc.devRef .tc main_arg5) := by keep_host hostOps0

theorem v36_4_1 : W4 m ρ c (Proc.devRef .tc main_v36) = W1 m ρ c (Proc.devRef .tc main_v36) :=
  calc W4 m ρ c (Proc.devRef .tc main_v36)
    _ = W3 m ρ c (Proc.devRef .tc main_v36) := W4_of_ne m ρ c main_v36 (by decide)
    _ = W2 m ρ c (Proc.devRef .tc main_v36) := by keep_host hostOps1
    _ = W1 m ρ c (Proc.devRef .tc main_v36) := W2_of_ne m ρ c main_v36 (by decide)

theorem v51_4_2 : W4 m ρ c (Proc.devRef .tc main_v51) = W2 m ρ c (Proc.devRef .tc main_v51) :=
  calc W4 m ρ c (Proc.devRef .tc main_v51)
    _ = W3 m ρ c (Proc.devRef .tc main_v51) := W4_of_ne m ρ c main_v51 (by decide)
    _ = W2 m ρ c (Proc.devRef .tc main_v51) := by keep_host hostOps1

theorem v11_4_1 : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := by keep_host hostOps1
    _ = W1 m ρ c (Proc.devRef .tc main_v11) := W2_of_ne m ρ c main_v11 (by decide)

theorem arg0_5_0 : W5 m ρ c (Proc.devRef .tc main_arg0) = W0 m ρ c (Proc.devRef .tc main_arg0) :=
  calc W5 m ρ c (Proc.devRef .tc main_arg0)
    _ = W4 m ρ c (Proc.devRef .tc main_arg0) := by keep_host hostOps2
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := by keep_host hostOps1
    _ = W1 m ρ c (Proc.devRef .tc main_arg0) := W2_of_ne m ρ c main_arg0 (by decide)
    _ = W0 m ρ c (Proc.devRef .tc main_arg0) := by keep_host hostOps0

theorem v66_5_4 : W5 m ρ c (Proc.devRef .tc main_v66) = W4 m ρ c (Proc.devRef .tc main_v66) :=
  calc W5 m ρ c (Proc.devRef .tc main_v66)
    _ = W4 m ρ c (Proc.devRef .tc main_v66) := by keep_host hostOps2

theorem v16_6_1 : W6 m ρ c (Proc.devRef .tc main_v16) = W1 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := by keep_host hostOps2
    _ = W3 m ρ c (Proc.devRef .tc main_v16) := W4_of_ne m ρ c main_v16 (by decide)
    _ = W2 m ρ c (Proc.devRef .tc main_v16) := by keep_host hostOps1
    _ = W1 m ρ c (Proc.devRef .tc main_v16) := W2_of_ne m ρ c main_v16 (by decide)

theorem arg1_7_0 : W7 m ρ c (Proc.devRef .tc main_arg1) = W0 m ρ c (Proc.devRef .tc main_arg1) :=
  calc W7 m ρ c (Proc.devRef .tc main_arg1)
    _ = W6 m ρ c (Proc.devRef .tc main_arg1) := by keep_host hostOps3
    _ = W5 m ρ c (Proc.devRef .tc main_arg1) := W6_of_ne m ρ c main_arg1 (by decide)
    _ = W4 m ρ c (Proc.devRef .tc main_arg1) := by keep_host hostOps2
    _ = W3 m ρ c (Proc.devRef .tc main_arg1) := W4_of_ne m ρ c main_arg1 (by decide)
    _ = W2 m ρ c (Proc.devRef .tc main_arg1) := by keep_host hostOps1
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := by keep_host hostOps0

theorem v51_7_2 : W7 m ρ c (Proc.devRef .tc main_v51) = W2 m ρ c (Proc.devRef .tc main_v51) :=
  calc W7 m ρ c (Proc.devRef .tc main_v51)
    _ = W6 m ρ c (Proc.devRef .tc main_v51) := by keep_host hostOps3
    _ = W5 m ρ c (Proc.devRef .tc main_v51) := W6_of_ne m ρ c main_v51 (by decide)
    _ = W4 m ρ c (Proc.devRef .tc main_v51) := by keep_host hostOps2
    _ = W3 m ρ c (Proc.devRef .tc main_v51) := W4_of_ne m ρ c main_v51 (by decide)
    _ = W2 m ρ c (Proc.devRef .tc main_v51) := by keep_host hostOps1

theorem v79_7_5 : W7 m ρ c (Proc.devRef .tc main_v79) = W5 m ρ c (Proc.devRef .tc main_v79) :=
  calc W7 m ρ c (Proc.devRef .tc main_v79)
    _ = W6 m ρ c (Proc.devRef .tc main_v79) := by keep_host hostOps3
    _ = W5 m ρ c (Proc.devRef .tc main_v79) := W6_of_ne m ρ c main_v79 (by decide)

theorem arg2_8_0 : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := by keep_host hostOps3
    _ = W5 m ρ c (Proc.devRef .tc main_arg2) := W6_of_ne m ρ c main_arg2 (by decide)
    _ = W4 m ρ c (Proc.devRef .tc main_arg2) := by keep_host hostOps2
    _ = W3 m ρ c (Proc.devRef .tc main_arg2) := W4_of_ne m ρ c main_arg2 (by decide)
    _ = W2 m ρ c (Proc.devRef .tc main_arg2) := by keep_host hostOps1
    _ = W1 m ρ c (Proc.devRef .tc main_arg2) := W2_of_ne m ρ c main_arg2 (by decide)
    _ = W0 m ρ c (Proc.devRef .tc main_arg2) := by keep_host hostOps0

theorem v94_8_6 : W8 m ρ c (Proc.devRef .tc main_v94) = W6 m ρ c (Proc.devRef .tc main_v94) :=
  calc W8 m ρ c (Proc.devRef .tc main_v94)
    _ = W7 m ρ c (Proc.devRef .tc main_v94) := W8_of_ne m ρ c main_v94 (by decide)
    _ = W6 m ρ c (Proc.devRef .tc main_v94) := by keep_host hostOps3

theorem arg3_8_0 : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := by keep_host hostOps3
    _ = W5 m ρ c (Proc.devRef .tc main_arg3) := W6_of_ne m ρ c main_arg3 (by decide)
    _ = W4 m ρ c (Proc.devRef .tc main_arg3) := by keep_host hostOps2
    _ = W3 m ρ c (Proc.devRef .tc main_arg3) := W4_of_ne m ρ c main_arg3 (by decide)
    _ = W2 m ρ c (Proc.devRef .tc main_arg3) := by keep_host hostOps1
    _ = W1 m ρ c (Proc.devRef .tc main_arg3) := W2_of_ne m ρ c main_arg3 (by decide)
    _ = W0 m ρ c (Proc.devRef .tc main_arg3) := by keep_host hostOps0

theorem v103_11_9 : W11 m ρ c (Proc.devRef .tc main_v103) = W9 m ρ c (Proc.devRef .tc main_v103) :=
  calc W11 m ρ c (Proc.devRef .tc main_v103)
    _ = W10 m ρ c (Proc.devRef .tc main_v103) := by keep_host hostOps5
    _ = W9 m ρ c (Proc.devRef .tc main_v103) := (W10_arr m ρ c 0).trans (((dat4 (V9 m ρ) c).arrAt_in 0 rfl _).trans (A_eq4 (V9 m ρ) c 0))

theorem v110_11_9 : W11 m ρ c (Proc.devRef .tc main_v110) = W9 m ρ c (Proc.devRef .tc main_v110) :=
  calc W11 m ρ c (Proc.devRef .tc main_v110)
    _ = W10 m ρ c (Proc.devRef .tc main_v110) := by keep_host hostOps5
    _ = W9 m ρ c (Proc.devRef .tc main_v110) := (W10_arr m ρ c 1).trans (((dat4 (V9 m ρ) c).arrAt_in 1 rfl _).trans (A_eq4 (V9 m ρ) c 1))

end Cert.KernelIdeal.Walk

end
-- ==== Proof.Spec.lean ====
/-
  The three row-wise combinations the node tables go through, each as one function of whole arrays,
  index by index over the extended reals.

  * `rowScaleAdd base sc agg`  : entry (r, q) is  sc (r, 0) · base (r, q) + agg (r, q)
    (a node's own features gated by its column weight, plus the messages aggregated onto it);
  * `rowCombine emb x sc agg`  : entry (r, q) is  emb (r, q) + x (r, q) · (1 + sc (r, 0)) + agg (r, q)
    (the residual sum of three layers with the last layer's gated self term folded into one product);
  * `rowScore a p`            : entry (r, 0) is  logistic (Σ_k a (r, k) · p (r, k))
    (the sigmoid of the row-wise inner product, kept as a column).
-/
import Idealize.ShloMosaic.PureOps.Ideal
import Idealize.ShloMosaic.Lib.ValueIdx

noncomputable section

open scoped BigOperators

namespace Cert.Spec

open Idealize.ShloMosaic Idealize.ShloMosaic.ValueIdx

variable {n d : ℕ}

/-- The index (r, 0) of the column array under the entry (r, q). -/
abbrev colOf (i : (⟨2, ![n, d]⟩ : Shape).Idx) : (⟨2, ![n, 1]⟩ : Shape).Idx :=
  ix2 (⟨(i 0).val, idx2_lt0 i⟩ : Fin n) (0 : Fin 1)

/-- Entry (r, q):  sc (r, 0) · base (r, q) + agg (r, q). -/
def rowScaleAdd (base : (⟨2, ![n, d]⟩ : Shape).Idx → EReal) (sc : (⟨2, ![n, 1]⟩ : Shape).Idx → EReal)
    (agg : (⟨2, ![n, d]⟩ : Shape).Idx → EReal) : (⟨2, ![n, d]⟩ : Shape).Idx → EReal :=
  fun i => sc (colOf i) * base i + agg i

/-- Entry (r, q):  emb (r, q) + x (r, q) · (1 + sc (r, 0)) + agg (r, q). -/
def rowCombine (emb x : (⟨2, ![n, d]⟩ : Shape).Idx → EReal) (sc : (⟨2, ![n, 1]⟩ : Shape).Idx → EReal)
    (agg : (⟨2, ![n, d]⟩ : Shape).Idx → EReal) : (⟨2, ![n, d]⟩ : Shape).Idx → EReal :=
  fun i => emb i + x i * (1 + sc (colOf i)) + agg i

/-- Entry (r, 0):  logistic (Σ_k a (r, k) · p (r, k)). -/
def rowScore (a p : (⟨2, ![n, d]⟩ : Shape).Idx → EReal) : (⟨2, ![n, 1]⟩ : Shape).Idx → EReal :=
  fun i => Ideal.logistic (∑ k : Fin d, a (ix2 (⟨(i 0).val, idx2_lt0 i⟩ : Fin n) k) * p (ix2 (⟨(i 0).val, idx2_lt0 i⟩ : Fin n) k))

theorem rowScaleAdd_ix2 (base : (⟨2, ![n, d]⟩ : Shape).Idx → EReal) (sc : (⟨2, ![n, 1]⟩ : Shape).Idx → EReal)
    (agg : (⟨2, ![n, d]⟩ : Shape).Idx → EReal) (r : Fin n) (q : Fin d) :
    rowScaleAdd base sc agg (ix2 r q) = sc (ix2 r (0 : Fin 1)) * base (ix2 r q) + agg (ix2 r q) := rfl

theorem rowCombine_ix2 (emb x : (⟨2, ![n, d]⟩ : Shape).Idx → EReal) (sc : (⟨2, ![n, 1]⟩ : Shape).Idx → EReal)
    (agg : (⟨2, ![n, d]⟩ : Shape).Idx → EReal) (r : Fin n) (q : Fin d) :
    rowCombine emb x sc agg (ix2 r q) = emb (ix2 r q) + x (ix2 r q) * (1 + sc (ix2 r (0 : Fin 1))) + agg (ix2 r q) := rfl

theorem rowScore_ix2 (a p : (⟨2, ![n, d]⟩ : Shape).Idx → EReal) (r : Fin n) (u : Fin 1) :
    rowScore a p (ix2 r u) = Ideal.logistic (∑ k : Fin d, a (ix2 r k) * p (ix2 r k)) := rfl

end Cert.Spec

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.Region0.lean ====
/-
  Region 0: the row-tiled kernel that writes, block of 5000 rows by block, the node table
  `sc (r, 0) · base (r, q) + agg (r, q)`.  Each grid point reads rows 5000·t … 5000·t + 4999 of its three
  operands and writes the same rows of the result; the blocks tile the 150000 rows, so after the last
  point the result array is that one function of the operand arrays as the region finds them.
-/
import proofs.«137178_j90391881711984_2_alg».proof.Proof.Gen.KernelIdeal.Frame
import proofs.«137178_j90391881711984_2_alg».proof.Proof.Spec
import proofs.«137178_j90391881711984_2_alg».proof.Proof.LibRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the column entry of row p times the base entry, plus the aggregate's. -/
theorem pay_apply (x1 : Vec Ideal S5000x1 .f32) (x0 x2 : Vec Ideal S5000x64 .f32) (p : Fin 5000) (q : Fin 64) :
    k0_pay1 x1 x0 x2 (ix2 p q) = x1 (ix2 p (0 : Fin 1)) * x0 (ix2 p q) + x2 (ix2 p q) := by
  unfold k0_pay1
  show (addf (mulf (broadcastTo S5000x64 (shapeCast S5000x1 _ _) _) _) (shapeCast S5000x64 _ _)) (ix2 p q) = _
  rw [addf_apply, mulf_apply, shapeCast_self, shapeCast_self, Cert.LibRows.broadcastTo_a1_ab_apply]

/-- The printed index maps over the grid: every window moves with the grid point along the rows and stays at
    column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Reading the three operand arrays through point `t`'s input blocks at (p, q) is reading them at row
    5000·t + p: the row-scaled sum there, which is the result's block read at (p, q). -/
theorem block_read (sc : S150000x1.Idx → EReal) (base agg : S150000x64.Idx → EReal) (t : Fin cfg0.N) (p : Fin 5000) (q : Fin 64) :
    sc (((cfg0.win 1).blk t).view.emb (ix2 p (0 : Fin 1))) * base (((cfg0.win 0).blk t).view.emb (ix2 p q))
        + agg (((cfg0.win 2).blk t).view.emb (ix2 p q))
      = Cert.Spec.rowScaleAdd base sc agg (((cfg0.win 3).blk t).view.emb (ix2 p q)) := by
  obtain ⟨e00, e01, e10, e11, e20, e21, e30, e31⟩ := idx_facts t
  have ht : t.val < 30 := by have := t.isLt; have hN : cfg0.N = 30 := N_0; omega
  have hrow : 5000 * t.val + p.val < 150000 := by have := p.isLt; omega
  have h3 : ((cfg0.win 3).blk t).view.emb (ix2 p q) = (ix2 (⟨5000 * t.val + p.val, hrow⟩ : Fin 150000) q : S150000x64.Idx) := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  have h0 : ((cfg0.win 0).blk t).view.emb (ix2 p q) = (ix2 (⟨5000 * t.val + p.val, hrow⟩ : Fin 150000) q : S150000x64.Idx) := by
    funext a; apply Fin.ext
    match a with
    | ⟨0, _⟩ => show win0_0.index t (0 : Fin 2) * 5000 + 1 * p.val = 5000 * t.val + p.val; omega
    | ⟨1, _⟩ => show win0_0.index t (1 : Fin 2) * 64 + 1 * q.val = q.val; omega
  have h2 : ((cfg0.win 2).blk t).view.emb (ix2 p q) = (ix2 (⟨5000 * t.val + p.val, hrow⟩ : Fin 150000) q : S150000x64.Idx) := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  have h1 : ((cfg0.win 1).blk t).view.emb (ix2 p (0 : Fin 1)) = (ix2 (⟨5000 * t.val + p.val, hrow⟩ : Fin 150000) (0 : Fin 1) : S150000x1.Idx) := by
    funext a; apply Fin.ext
    match a with
    | ⟨0, _⟩ => show win0_1.index t (0 : Fin 2) * 5000 + 1 * p.val = 5000 * t.val + p.val; omega
    | ⟨1, _⟩ => show win0_1.index t (1 : Fin 2) * 1 + 1 * 0 = 0; omega
  rw [h0, h1, h2, h3, Cert.Spec.rowScaleAdd_ix2]

/-- What point `t` writes back is block `t` of the row-scaled sum of the operand arrays. -/
theorem flushed_eq (c : Dev nD) (t : Fin cfg0.N) :
    (dat0 V c).flushed 3 t = ((cfg0.win 3).blk t).view.read (Elt Ideal)
      (Cert.Spec.rowScaleAdd (V c main_arg1 : S150000x64.Idx → EReal) (V c main_v50 : S150000x1.Idx → EReal) (V c main_v49 : S150000x64.Idx → EReal)) := by
  show (cfg0.win 3).cut (grid0.coords t) ((dat0 V c).after 3 t) = _
  rw [after0_3]
  unfold out0_3
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  refine (pay_apply (iblk0 V c 1 t) (iblk0 V c 0 t) (iblk0 V c 2 t) p q).trans ?_
  exact block_read (V c main_v50) (V c main_arg1) (V c main_v49) t p q

/-- An index of the result array is in point `t`'s block iff each coordinate is in the block's range. -/
theorem mem_blk (t : Fin cfg0.N) (i : S150000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v51).slice (win0_3.rect t)).set ↔ _
  rw [View.set_slice_whole, Rect.mem_set_unit]
  exact Iff.rfl

/-- Row `r` lies in the block of point `r / 5000`: the blocks tile the array. -/
theorem cover (i : S150000x64.Idx) : ∃ t : Fin cfg0.N, (cfg0.win 3).flush t = true ∧ i ∈ ((cfg0.win 3).blk t).view.set := by
  have hi0 : (i 0).val < 150000 := (i 0).isLt
  have hi1 : (i 1).val < 64 := (i 1).isLt
  have hN : cfg0.N = 30 := N_0
  refine ⟨⟨(i 0).val / 5000, by rw [hN]; omega⟩, flush0_3 _, ?_⟩
  rw [mem_blk]
  obtain ⟨-, -, -, -, -, -, e30, e31⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e31]; omega

/-- The result array after the region: the row-scaled sum of the operand arrays as the region finds them. -/
theorem out_eq (c : Dev nD) :
    (dat0 V c).arrAt 3 cfg0.N
      = Cert.Spec.rowScaleAdd (V c main_arg1 : S150000x64.Idx → EReal) (V c main_v50 : S150000x1.Idx → EReal) (V c main_v49 : S150000x64.Idx → EReal) :=
  (dat0 V c).arrAt_eq_of_cover 3 _ (fun t _ => flushed_eq V c t) cover

end Cert.KernelIdeal.Region0

end
-- ==== Proof.Region1.lean ====
/-
  Region 1: the row-tiled kernel that writes, block of 5000 rows by block, the node table
  `sc (r, 0) · base (r, q) + agg (r, q)`.  Each grid point reads rows 5000·t … 5000·t + 4999 of its three
  operands and writes the same rows of the result; the blocks tile the 100000 rows, so after the last
  point the result array is that one function of the operand arrays as the region finds them.
-/
import proofs.«137178_j90391881711984_2_alg».proof.Proof.Gen.KernelIdeal.Frame
import proofs.«137178_j90391881711984_2_alg».proof.Proof.Spec
import proofs.«137178_j90391881711984_2_alg».proof.Proof.LibRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the column entry of row p times the base entry, plus the aggregate's. -/
theorem pay_apply (x1 : Vec Ideal S5000x1 .f32) (x0 x2 : Vec Ideal S5000x64 .f32) (p : Fin 5000) (q : Fin 64) :
    k1_pay1 x1 x0 x2 (ix2 p q) = x1 (ix2 p (0 : Fin 1)) * x0 (ix2 p q) + x2 (ix2 p q) := by
  unfold k1_pay1
  show (addf (mulf (broadcastTo S5000x64 (shapeCast S5000x1 _ _) _) _) (shapeCast S5000x64 _ _)) (ix2 p q) = _
  rw [addf_apply, mulf_apply, shapeCast_self, shapeCast_self, Cert.LibRows.broadcastTo_a1_ab_apply]

/-- The printed index maps over the grid: every window moves with the grid point along the rows and stays at
    column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Reading the three operand arrays through point `t`'s input blocks at (p, q) is reading them at row
    5000·t + p: the row-scaled sum there, which is the result's block read at (p, q). -/
theorem block_read (sc : S100000x1.Idx → EReal) (base agg : S100000x64.Idx → EReal) (t : Fin cfg1.N) (p : Fin 5000) (q : Fin 64) :
    sc (((cfg1.win 1).blk t).view.emb (ix2 p (0 : Fin 1))) * base (((cfg1.win 0).blk t).view.emb (ix2 p q))
        + agg (((cfg1.win 2).blk t).view.emb (ix2 p q))
      = Cert.Spec.rowScaleAdd base sc agg (((cfg1.win 3).blk t).view.emb (ix2 p q)) := by
  obtain ⟨e00, e01, e10, e11, e20, e21, e30, e31⟩ := idx_facts t
  have ht : t.val < 20 := by have := t.isLt; have hN : cfg1.N = 20 := N_1; omega
  have hrow : 5000 * t.val + p.val < 100000 := by have := p.isLt; omega
  have h3 : ((cfg1.win 3).blk t).view.emb (ix2 p q) = (ix2 (⟨5000 * t.val + p.val, hrow⟩ : Fin 100000) q : S100000x64.Idx) := by
    funext a; apply Fin.ext
    match a with
    | ⟨0, _⟩ => show win1_3.index t (0 : Fin 2) * 5000 + 1 * p.val = 5000 * t.val + p.val; omega
    | ⟨1, _⟩ => show win1_3.index t (1 : Fin 2) * 64 + 1 * q.val = q.val; omega
  have h0 : ((cfg1.win 0).blk t).view.emb (ix2 p q) = (ix2 (⟨5000 * t.val + p.val, hrow⟩ : Fin 100000) q : S100000x64.Idx) := by
    funext a; apply Fin.ext
    match a with
    | ⟨0, _⟩ => show win1_0.index t (0 : Fin 2) * 5000 + 1 * p.val = 5000 * t.val + p.val; omega
    | ⟨1, _⟩ => show win1_0.index t (1 : Fin 2) * 64 + 1 * q.val = q.val; omega
  have h2 : ((cfg1.win 2).blk t).view.emb (ix2 p q) = (ix2 (⟨5000 * t.val + p.val, hrow⟩ : Fin 100000) q : S100000x64.Idx) := by
    funext a; apply Fin.ext
    match a with
    | ⟨0, _⟩ => show win1_2.index t (0 : Fin 2) * 5000 + 1 * p.val = 5000 * t.val + p.val; omega
    | ⟨1, _⟩ => show win1_2.index t (1 : Fin 2) * 64 + 1 * q.val = q.val; omega
  have h1 : ((cfg1.win 1).blk t).view.emb (ix2 p (0 : Fin 1)) = (ix2 (⟨5000 * t.val + p.val, hrow⟩ : Fin 100000) (0 : Fin 1) : S100000x1.Idx) := by
    funext a; apply Fin.ext
    match a with
    | ⟨0, _⟩ => show win1_1.index t (0 : Fin 2) * 5000 + 1 * p.val = 5000 * t.val + p.val; omega
    | ⟨1, _⟩ => show win1_1.index t (1 : Fin 2) * 1 + 1 * 0 = 0; omega
  rw [h0, h1, h2, h3, Cert.Spec.rowScaleAdd_ix2]

/-- What point `t` writes back is block `t` of the row-scaled sum of the operand arrays. -/
theorem flushed_eq (c : Dev nD) (t : Fin cfg1.N) :
    (dat1 V c).flushed 3 t = ((cfg1.win 3).blk t).view.read (Elt Ideal)
      (Cert.Spec.rowScaleAdd (V c main_arg0 : S100000x64.Idx → EReal) (V c main_v65 : S100000x1.Idx → EReal) (V c main_v64 : S100000x64.Idx → EReal)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  refine (pay_apply (iblk1 V c 1 t) (iblk1 V c 0 t) (iblk1 V c 2 t) p q).trans ?_
  exact block_read (V c main_v65) (V c main_arg0) (V c main_v64) t p q

/-- An index of the result array is in point `t`'s block iff each coordinate is in the block's range. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v66).slice (win1_3.rect t)).set ↔ _
  rw [View.set_slice_whole, Rect.mem_set_unit]
  exact Iff.rfl

/-- Row `r` lies in the block of point `r / 5000`: the blocks tile the array. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_blk]
  obtain ⟨-, -, -, -, -, -, e30, e31⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e31]; omega

/-- The result array after the region: the row-scaled sum of the operand arrays as the region finds them. -/
theorem out_eq (c : Dev nD) :
    (dat1 V c).arrAt 3 cfg1.N
      = Cert.Spec.rowScaleAdd (V c main_arg0 : S100000x64.Idx → EReal) (V c main_v65 : S100000x1.Idx → EReal) (V c main_v64 : S100000x64.Idx → EReal) :=
  (dat1 V c).arrAt_eq_of_cover 3 _ (fun t _ => flushed_eq V c t) cover

end Cert.KernelIdeal.Region1

end
-- ==== Proof.Algebra.lean ====
import Idealize.ShloMosaic.PureOps.Ideal

/-!
# Extended-real algebra for the gated update

Pure facts about `EReal` arithmetic and two f32 bit patterns: a regrouping of
`e + x * (1 + s) + g`, the values the patterns `0x3F800000` and `0x322BCC77` denote, and
the sign of the gate `1 - n / (n + ε)`.
-/

noncomputable section

namespace Cert.Alg

open Idealize.ShloMosaic

/-- Distributing a factor over 1 + s needs 0 ≤ s in the extended reals (EReal.left_distrib_of_nonneg); the rest is associativity and commutativity of +. -/
theorem combine (e x g s : EReal) (hs : 0 ≤ s) : e + x * (1 + s) + g = e + x + (s * x + g) := by
  rw [EReal.left_distrib_of_nonneg zero_le_one hs, mul_one, mul_comm x s]
  simp only [add_assoc]

/-- The f32 pattern 0x3F800000 denotes 1. -/
theorem one_bits : Ideal.ofBits .f32 (0x3F800000#32) = (1 : EReal) := by
  simp [Ideal.ofBits, Ideal.ieee, -EReal.coe_mul]; norm_num

/-- The f32 pattern 0x322BCC77 (the nearest float to 1e-8) denotes a positive real. -/
theorem eps_bits : ∃ r : ℝ, 0 < r ∧ Ideal.ofBits .f32 (0x322BCC77#32) = ((r : ℝ) : EReal) := by
  -- sign 0, exponent field 100, fraction field 0x2BCC77: the value is (2^23 + 0x2BCC77) · 2^(100 - 127 - 23)
  refine ⟨(11258999 : ℝ) * (2 : ℝ) ^ (-50 : ℤ), by positivity, ?_⟩
  simp [Ideal.ofBits, Ideal.ieee, -EReal.coe_mul]

/-- For a count n, 1 − n / (n + ε) is nonnegative when ε is a positive real: n/(n+ε) is a real in [0,1). -/
theorem gate_nonneg (n : ℕ) : (0 : EReal) ≤ Ideal.ofBits .f32 (0x3F800000#32) - Ideal.div (((n : ℝ)) : EReal) ((((n : ℝ)) : EReal) + Ideal.ofBits .f32 (0x322BCC77#32)) := by
  obtain ⟨r, hr, he⟩ := eps_bits
  have hn : (0 : ℝ) ≤ (n : ℝ) := Nat.cast_nonneg n
  have hpos : (0 : ℝ) < (n : ℝ) + r := by positivity
  rw [one_bits, he, ← EReal.coe_add, Ideal.div_coe hpos.ne', ← EReal.coe_mul, ← EReal.coe_one,
    ← EReal.coe_sub, EReal.coe_nonneg, sub_nonneg, mul_one_div, div_le_one hpos]
  linarith

end Cert.Alg
-- ==== Proof.Region2.lean ====
/-
  Region 2: the row-tiled kernel that writes, block of 5000 rows by block, the node table
  `emb (r, q) + x (r, q) · (1 + sc (r, 0)) + agg (r, q)`.  Each grid point reads rows 5000·t … 5000·t + 4999 of
  its four operands and writes the same rows of the result; the blocks tile the 100000 rows, so after the
  last point the result array is that one function of the operand arrays as the region finds them.
-/
import proofs.«137178_j90391881711984_2_alg».proof.Proof.Gen.KernelIdeal.Frame
import proofs.«137178_j90391881711984_2_alg».proof.Proof.Spec
import proofs.«137178_j90391881711984_2_alg».proof.Proof.LibRows
import proofs.«137178_j90391881711984_2_alg».proof.Proof.Algebra
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): emb + x · (1 + the column entry of row p) + the aggregate. -/
theorem pay_apply (x2 : Vec Ideal S5000x1 .f32) (x0 x1 x3 : Vec Ideal S5000x64 .f32) (p : Fin 5000) (q : Fin 64) :
    k2_pay1 x2 x0 x1 x3 (ix2 p q) = x0 (ix2 p q) + x1 (ix2 p q) * (1 + x2 (ix2 p (0 : Fin 1))) + x3 (ix2 p q) := by
  unfold k2_pay1
  show (addf (addf _ (mulf (shapeCast S5000x64 _ _) (broadcastTo S5000x64 (addf (broadcast S5000x1 (Scalar.ofBits .f32 0x3F800000#32)) (shapeCast S5000x1 _ _)) _))) (shapeCast S5000x64 _ _)) (ix2 p q) = _
  rw [addf_apply, addf_apply, mulf_apply, shapeCast_self, shapeCast_self, shapeCast_self, Cert.LibRows.broadcastTo_a1_ab_apply,
    addf_apply, broadcast_apply]
  show _ + _ * (Ideal.ofBits .f32 0x3F800000#32 + _) + _ = _
  rw [Cert.Alg.one_bits]

/-- The printed index maps over the grid: every window moves with the grid point along the rows and stays at
    column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Reading the four operand arrays through point `t`'s input blocks at (p, q) is reading them at row
    5000·t + p: the combination there, which is the result's block read at (p, q). -/
theorem block_read (sc : S100000x1.Idx → EReal) (emb x agg : S100000x64.Idx → EReal) (t : Fin cfg2.N) (p : Fin 5000) (q : Fin 64) :
    emb (((cfg2.win 0).blk t).view.emb (ix2 p q))
        + x (((cfg2.win 1).blk t).view.emb (ix2 p q)) * (1 + sc (((cfg2.win 2).blk t).view.emb (ix2 p (0 : Fin 1))))
        + agg (((cfg2.win 3).blk t).view.emb (ix2 p q))
      = Cert.Spec.rowCombine emb x sc agg (((cfg2.win 4).blk t).view.emb (ix2 p q)) := by
  obtain ⟨e00, e01, e10, e11, e20, e21, e30, e31, e40, e41⟩ := idx_facts t
  have ht : t.val < 20 := by have := t.isLt; have hN : cfg2.N = 20 := N_2; omega
  have hrow : 5000 * t.val + p.val < 100000 := by have := p.isLt; omega
  have h4 : ((cfg2.win 4).blk t).view.emb (ix2 p q) = (ix2 (⟨5000 * t.val + p.val, hrow⟩ : Fin 100000) q : S100000x64.Idx) := by
    funext a; apply Fin.ext
    match a with
    | ⟨0, _⟩ => show win2_4.index t (0 : Fin 2) * 5000 + 1 * p.val = 5000 * t.val + p.val; omega
    | ⟨1, _⟩ => show win2_4.index t (1 : Fin 2) * 64 + 1 * q.val = q.val; omega
  have h0 : ((cfg2.win 0).blk t).view.emb (ix2 p q) = (ix2 (⟨5000 * t.val + p.val, hrow⟩ : Fin 100000) q : S100000x64.Idx) := by
    funext a; apply Fin.ext
    match a with
    | ⟨0, _⟩ => show win2_0.index t (0 : Fin 2) * 5000 + 1 * p.val = 5000 * t.val + p.val; omega
    | ⟨1, _⟩ => show win2_0.index t (1 : Fin 2) * 64 + 1 * q.val = q.val; omega
  have h1 : ((cfg2.win 1).blk t).view.emb (ix2 p q) = (ix2 (⟨5000 * t.val + p.val, hrow⟩ : Fin 100000) q : S100000x64.Idx) := by
    funext a; apply Fin.ext
    match a with
    | ⟨0, _⟩ => show win2_1.index t (0 : Fin 2) * 5000 + 1 * p.val = 5000 * t.val + p.val; omega
    | ⟨1, _⟩ => show win2_1.index t (1 : Fin 2) * 64 + 1 * q.val = q.val; omega
  have h3 : ((cfg2.win 3).blk t).view.emb (ix2 p q) = (ix2 (⟨5000 * t.val + p.val, hrow⟩ : Fin 100000) q : S100000x64.Idx) := by
    funext a; apply Fin.ext
    match a with
    | ⟨0, _⟩ => show win2_3.index t (0 : Fin 2) * 5000 + 1 * p.val = 5000 * t.val + p.val; omega
    | ⟨1, _⟩ => show win2_3.index t (1 : Fin 2) * 64 + 1 * q.val = q.val; omega
  have h2 : ((cfg2.win 2).blk t).view.emb (ix2 p (0 : Fin 1)) = (ix2 (⟨5000 * t.val + p.val, hrow⟩ : Fin 100000) (0 : Fin 1) : S100000x1.Idx) := by
    funext a; apply Fin.ext
    match a with
    | ⟨0, _⟩ => show win2_2.index t (0 : Fin 2) * 5000 + 1 * p.val = 5000 * t.val + p.val; omega
    | ⟨1, _⟩ => show win2_2.index t (1 : Fin 2) * 1 + 1 * 0 = 0; omega
  rw [h0, h1, h2, h3, h4, Cert.Spec.rowCombine_ix2]

/-- What point `t` writes back is block `t` of the combination of the operand arrays. -/
theorem flushed_eq (c : Dev nD) (t : Fin cfg2.N) :
    (dat2 V c).flushed 4 t = ((cfg2.win 4).blk t).view.read (Elt Ideal)
      (Cert.Spec.rowCombine (V c main_arg0 : S100000x64.Idx → EReal) (V c main_v66 : S100000x64.Idx → EReal) (V c main_v93 : S100000x1.Idx → EReal) (V c main_v92 : S100000x64.Idx → EReal)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  refine (pay_apply (iblk2 V c 2 t) (iblk2 V c 0 t) (iblk2 V c 1 t) (iblk2 V c 3 t) p q).trans ?_
  exact block_read (V c main_v93) (V c main_arg0) (V c main_v66) (V c main_v92) t p q

/-- An index of the result array is in point `t`'s block iff each coordinate is in the block's range. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v94).slice (win2_4.rect t)).set ↔ _
  rw [View.set_slice_whole, Rect.mem_set_unit]
  exact Iff.rfl

/-- Row `r` lies in the block of point `r / 5000`: the blocks tile the array. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_4 _, ?_⟩
  rw [mem_blk]
  obtain ⟨-, -, -, -, -, -, -, -, e40, e41⟩ := idx_facts ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e40]; show (i 0).val / 5000 * 5000 ≤ (i 0).val ∧ (i 0).val < (i 0).val / 5000 * 5000 + 5000; omega
  | ⟨1, _⟩ => show win2_4.index _ (1 : Fin 2) * 64 ≤ (i 1).val ∧ (i 1).val < win2_4.index _ (1 : Fin 2) * 64 + 64; rw [e41]; omega

/-- The result array after the region: the combination of the operand arrays as the region finds them. -/
theorem out_eq (c : Dev nD) :
    (dat2 V c).arrAt 4 cfg2.N
      = Cert.Spec.rowCombine (V c main_arg0 : S100000x64.Idx → EReal) (V c main_v66 : S100000x64.Idx → EReal) (V c main_v93 : S100000x1.Idx → EReal) (V c main_v92 : S100000x64.Idx → EReal) :=
  (dat2 V c).arrAt_eq_of_cover 4 _ (fun t _ => flushed_eq V c t) cover

end Cert.KernelIdeal.Region2

end
-- ==== Proof.Region3.lean ====
/-
  Region 3: the row-tiled kernel that writes, block of 5000 rows by block, the node table
  `emb (r, q) + x (r, q) · (1 + sc (r, 0)) + agg (r, q)`.  Each grid point reads rows 5000·t … 5000·t + 4999 of
  its four operands and writes the same rows of the result; the blocks tile the 150000 rows, so after the
  last point the result array is that one function of the operand arrays as the region finds them.
-/
import proofs.«137178_j90391881711984_2_alg».proof.Proof.Gen.KernelIdeal.Frame
import proofs.«137178_j90391881711984_2_alg».proof.Proof.Spec
import proofs.«137178_j90391881711984_2_alg».proof.Proof.LibRows
import proofs.«137178_j90391881711984_2_alg».proof.Proof.Algebra
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): emb + x · (1 + the column entry of row p) + the aggregate. -/
theorem pay_apply (x2 : Vec Ideal S5000x1 .f32) (x0 x1 x3 : Vec Ideal S5000x64 .f32) (p : Fin 5000) (q : Fin 64) :
    k3_pay1 x2 x0 x1 x3 (ix2 p q) = x0 (ix2 p q) + x1 (ix2 p q) * (1 + x2 (ix2 p (0 : Fin 1))) + x3 (ix2 p q) := by
  unfold k3_pay1
  show (addf (addf _ (mulf (shapeCast S5000x64 _ _) (broadcastTo S5000x64 (addf (broadcast S5000x1 (Scalar.ofBits .f32 0x3F800000#32)) (shapeCast S5000x1 _ _)) _))) (shapeCast S5000x64 _ _)) (ix2 p q) = _
  rw [addf_apply, addf_apply, mulf_apply, shapeCast_self, shapeCast_self, shapeCast_self, Cert.LibRows.broadcastTo_a1_ab_apply,
    addf_apply, broadcast_apply]
  show _ + _ * (Ideal.ofBits .f32 0x3F800000#32 + _) + _ = _
  rw [Cert.Alg.one_bits]

/-- The printed index maps over the grid: every window moves with the grid point along the rows and stays at
    column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Reading the four operand arrays through point `t`'s input blocks at (p, q) is reading them at row
    5000·t + p: the combination there, which is the result's block read at (p, q). -/
theorem block_read (sc : S150000x1.Idx → EReal) (emb x agg : S150000x64.Idx → EReal) (t : Fin cfg3.N) (p : Fin 5000) (q : Fin 64) :
    emb (((cfg3.win 0).blk t).view.emb (ix2 p q))
        + x (((cfg3.win 1).blk t).view.emb (ix2 p q)) * (1 + sc (((cfg3.win 2).blk t).view.emb (ix2 p (0 : Fin 1))))
        + agg (((cfg3.win 3).blk t).view.emb (ix2 p q))
      = Cert.Spec.rowCombine emb x sc agg (((cfg3.win 4).blk t).view.emb (ix2 p q)) := by
  obtain ⟨e00, e01, e10, e11, e20, e21, e30, e31, e40, e41⟩ := idx_facts t
  have ht : t.val < 30 := by have := t.isLt; have hN : cfg3.N = 30 := N_3; omega
  have hrow : 5000 * t.val + p.val < 150000 := by have := p.isLt; omega
  have h4 : ((cfg3.win 4).blk t).view.emb (ix2 p q) = (ix2 (⟨5000 * t.val + p.val, hrow⟩ : Fin 150000) q : S150000x64.Idx) := by
    funext a; apply Fin.ext
    match a with
    | ⟨0, _⟩ => show win3_4.index t (0 : Fin 2) * 5000 + 1 * p.val = 5000 * t.val + p.val; omega
    | ⟨1, _⟩ => show win3_4.index t (1 : Fin 2) * 64 + 1 * q.val = q.val; omega
  have h0 : ((cfg3.win 0).blk t).view.emb (ix2 p q) = (ix2 (⟨5000 * t.val + p.val, hrow⟩ : Fin 150000) q : S150000x64.Idx) := by
    funext a; apply Fin.ext
    match a with
    | ⟨0, _⟩ => show win3_0.index t (0 : Fin 2) * 5000 + 1 * p.val = 5000 * t.val + p.val; omega
    | ⟨1, _⟩ => show win3_0.index t (1 : Fin 2) * 64 + 1 * q.val = q.val; omega
  have h1 : ((cfg3.win 1).blk t).view.emb (ix2 p q) = (ix2 (⟨5000 * t.val + p.val, hrow⟩ : Fin 150000) q : S150000x64.Idx) := by
    funext a; apply Fin.ext
    match a with
    | ⟨0, _⟩ => show win3_1.index t (0 : Fin 2) * 5000 + 1 * p.val = 5000 * t.val + p.val; omega
    | ⟨1, _⟩ => show win3_1.index t (1 : Fin 2) * 64 + 1 * q.val = q.val; omega
  have h3 : ((cfg3.win 3).blk t).view.emb (ix2 p q) = (ix2 (⟨5000 * t.val + p.val, hrow⟩ : Fin 150000) q : S150000x64.Idx) := by
    funext a; apply Fin.ext
    match a with
    | ⟨0, _⟩ => show win3_3.index t (0 : Fin 2) * 5000 + 1 * p.val = 5000 * t.val + p.val; omega
    | ⟨1, _⟩ => show win3_3.index t (1 : Fin 2) * 64 + 1 * q.val = q.val; omega
  have h2 : ((cfg3.win 2).blk t).view.emb (ix2 p (0 : Fin 1)) = (ix2 (⟨5000 * t.val + p.val, hrow⟩ : Fin 150000) (0 : Fin 1) : S150000x1.Idx) := by
    funext a; apply Fin.ext
    match a with
    | ⟨0, _⟩ => show win3_2.index t (0 : Fin 2) * 5000 + 1 * p.val = 5000 * t.val + p.val; omega
    | ⟨1, _⟩ => show win3_2.index t (1 : Fin 2) * 1 + 1 * 0 = 0; omega
  rw [h0, h1, h2, h3, h4, Cert.Spec.rowCombine_ix2]

/-- What point `t` writes back is block `t` of the combination of the operand arrays. -/
theorem flushed_eq (c : Dev nD) (t : Fin cfg3.N) :
    (dat3 V c).flushed 4 t = ((cfg3.win 4).blk t).view.read (Elt Ideal)
      (Cert.Spec.rowCombine (V c main_arg1 : S150000x64.Idx → EReal) (V c main_v51 : S150000x64.Idx → EReal) (V c main_v95 : S150000x1.Idx → EReal) (V c main_v79 : S150000x64.Idx → EReal)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  refine (pay_apply (iblk3 V c 2 t) (iblk3 V c 0 t) (iblk3 V c 1 t) (iblk3 V c 3 t) p q).trans ?_
  exact block_read (V c main_v95) (V c main_arg1) (V c main_v51) (V c main_v79) t p q

/-- An index of the result array is in point `t`'s block iff each coordinate is in the block's range. -/
theorem mem_blk (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v96).slice (win3_4.rect t)).set ↔ _
  rw [View.set_slice_whole, Rect.mem_set_unit]
  exact Iff.rfl

/-- Row `r` lies in the block of point `r / 5000`: the blocks tile the array. -/
theorem cover (i : S150000x64.Idx) : ∃ t : Fin cfg3.N, (cfg3.win 4).flush t = true ∧ i ∈ ((cfg3.win 4).blk t).view.set := by
  have hi0 : (i 0).val < 150000 := (i 0).isLt
  have hi1 : (i 1).val < 64 := (i 1).isLt
  have hN : cfg3.N = 30 := N_3
  refine ⟨⟨(i 0).val / 5000, by rw [hN]; omega⟩, flush3_4 _, ?_⟩
  rw [mem_blk]
  obtain ⟨-, -, -, -, -, -, -, -, e40, e41⟩ := idx_facts ⟨(i 0).val / 5000, by rw [hN]; omega⟩
  intro a
  match a with
  | ⟨0, _⟩ => show win3_4.index _ (0 : Fin 2) * 5000 ≤ (i 0).val ∧ (i 0).val < win3_4.index _ (0 : Fin 2) * 5000 + 5000; rw [e40]; show (i 0).val / 5000 * 5000 ≤ (i 0).val ∧ (i 0).val < (i 0).val / 5000 * 5000 + 5000; omega
  | ⟨1, _⟩ => show win3_4.index _ (1 : Fin 2) * 64 ≤ (i 1).val ∧ (i 1).val < win3_4.index _ (1 : Fin 2) * 64 + 64; rw [e41]; omega

/-- The result array after the region: the combination of the operand arrays as the region finds them. -/
theorem out_eq (c : Dev nD) :
    (dat3 V c).arrAt 4 cfg3.N
      = Cert.Spec.rowCombine (V c main_arg1 : S150000x64.Idx → EReal) (V c main_v51 : S150000x64.Idx → EReal) (V c main_v95 : S150000x1.Idx → EReal) (V c main_v79 : S150000x64.Idx → EReal) :=
  (dat3 V c).arrAt_eq_of_cover 4 _ (fun t _ => flushed_eq V c t) cover

end Cert.KernelIdeal.Region3

end
-- ==== Proof.Region4.lean ====
/-
  Region 4: the row-tiled scoring kernel.  Block of 8192 rows by block it multiplies the two gathered
  tables entry by entry, sums each row's 64 products and applies the logistic function, writing a column.
  The blocks tile the 65536 rows, so after the last point the result column is `rowScore` of the two
  operand arrays as the region finds them.
-/
import proofs.«137178_j90391881711984_2_alg».proof.Proof.Gen.KernelIdeal.Frame
import proofs.«137178_j90391881711984_2_alg».proof.Proof.Spec
import proofs.«137178_j90391881711984_2_alg».proof.Proof.LibRows
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, u): the logistic function of row p's inner product. -/
theorem pay_apply (x0 x1 : Vec Ideal S8192x64 .f32) (p : Fin 8192) (u : Fin 1) :
    k4_pay1 x0 x1 (ix2 p u) = Ideal.logistic (∑ k : Fin 64, x0 (ix2 p k) * x1 (ix2 p k)) := by
  unfold k4_pay1
  show Ideal.logistic ((shapeCast S8192x1 (multiReduction (F := Ideal) (φ := .f32) .add [1] S8192 (mulf (shapeCast S8192x64 _ _) (shapeCast S8192x64 _ _)) 0x00000000#32 _ _ _) _) (ix2 p u)) = _
  refine congrArg Ideal.logistic ?_
  refine (Cert.LibRows.shapeCast_a_a1_apply _ _ p u).trans ?_
  refine (Cert.LibRows.laneSum_apply _ _ _ _ _ p).trans ?_
  refine Finset.sum_congr rfl fun k _ => ?_
  rw [mulf_apply, shapeCast_self, shapeCast_self]

/-- The printed index maps over the grid: every window moves with the grid point along the rows and stays at
    column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Reading the two operand arrays through point `t`'s input blocks along row p is reading them along row
    8192·t + p: the score there, which is the result's block read at (p, u). -/
theorem block_read (a b : S65536x64.Idx → EReal) (t : Fin cfg4.N) (p : Fin 8192) (u : Fin 1) :
    Ideal.logistic (∑ k : Fin 64, a (((cfg4.win 0).blk t).view.emb (ix2 p k)) * b (((cfg4.win 1).blk t).view.emb (ix2 p k)))
      = Cert.Spec.rowScore a b (((cfg4.win 2).blk t).view.emb (ix2 p u)) := by
  obtain ⟨e00, e01, e10, e11, e20, e21⟩ := idx_facts t
  have ht : t.val < 8 := by have := t.isLt; have hN : cfg4.N = 8 := N_4; omega
  have hrow : 8192 * t.val + p.val < 65536 := by have := p.isLt; omega
  have h2 : ((cfg4.win 2).blk t).view.emb (ix2 p u) = (ix2 (⟨8192 * t.val + p.val, hrow⟩ : Fin 65536) u : S65536x1.Idx) := by
    funext a; apply Fin.ext
    match a with
    | ⟨0, _⟩ => show win4_2.index t (0 : Fin 2) * 8192 + 1 * p.val = 8192 * t.val + p.val; omega
    | ⟨1, _⟩ => show win4_2.index t (1 : Fin 2) * 1 + 1 * u.val = u.val; omega
  have h0 : ∀ k : Fin 64, ((cfg4.win 0).blk t).view.emb (ix2 p k) = (ix2 (⟨8192 * t.val + p.val, hrow⟩ : Fin 65536) k : S65536x64.Idx) := fun k => by
    funext a; apply Fin.ext
    match a with
    | ⟨0, _⟩ => show win4_0.index t (0 : Fin 2) * 8192 + 1 * p.val = 8192 * t.val + p.val; omega
    | ⟨1, _⟩ => show win4_0.index t (1 : Fin 2) * 64 + 1 * k.val = k.val; omega
  have h1 : ∀ k : Fin 64, ((cfg4.win 1).blk t).view.emb (ix2 p k) = (ix2 (⟨8192 * t.val + p.val, hrow⟩ : Fin 65536) k : S65536x64.Idx) := fun k => by
    funext a; apply Fin.ext
    match a with
    | ⟨0, _⟩ => show win4_1.index t (0 : Fin 2) * 8192 + 1 * p.val = 8192 * t.val + p.val; omega
    | ⟨1, _⟩ => show win4_1.index t (1 : Fin 2) * 64 + 1 * k.val = k.val; omega
  rw [h2, Cert.Spec.rowScore_ix2]
  refine congrArg Ideal.logistic (Finset.sum_congr rfl fun k _ => ?_)
  rw [h0 k, h1 k]

/-- What point `t` writes back is block `t` of the score column of the operand arrays. -/
theorem flushed_eq (c : Dev nD) (t : Fin cfg4.N) :
    (dat4 V c).flushed 2 t = ((cfg4.win 2).blk t).view.read (Elt Ideal)
      (Cert.Spec.rowScore (V c main_v103 : S65536x64.Idx → EReal) (V c main_v110 : S65536x64.Idx → EReal)) := by
  show (cfg4.win 2).cut (grid4.coords t) ((dat4 V c).after 2 t) = _
  rw [after4_2]
  unfold out4_2
  rw [View.canon_unit_zero hz]
  simp only [View.ld_unit_zero (S := S8192x64) hz]
  funext j
  obtain ⟨p, u, rfl⟩ : ∃ (p : Fin 8192) (u : Fin 1), j = ix2 p u := ⟨j 0, j 1, eq_ix2 j⟩
  refine (pay_apply (iblk4 V c 0 t) (iblk4 V c 1 t) p u).trans ?_
  exact block_read (V c main_v103) (V c main_v110) t p u

/-- An index of the result column is in point `t`'s block iff each coordinate is in the block's range. -/
theorem mem_blk (t : Fin cfg4.N) (i : S65536x1.Idx) :
    i ∈ ((cfg4.win 2).blk t).view.set ↔ ∀ a : Fin 2, win4_2.index t a * S8192x1.size a ≤ (i a).val ∧ (i a).val < win4_2.index t a * S8192x1.size a + S8192x1.size a := by
  show i ∈ ((View.whole main_v111).slice (win4_2.rect t)).set ↔ _
  rw [View.set_slice_whole, Rect.mem_set_unit]
  exact Iff.rfl

/-- Row `r` lies in the block of point `r / 8192`: the blocks tile the column. -/
theorem cover (i : S65536x1.Idx) : ∃ t : Fin cfg4.N, (cfg4.win 2).flush t = true ∧ i ∈ ((cfg4.win 2).blk t).view.set := by
  have hi0 : (i 0).val < 65536 := (i 0).isLt
  have hi1 : (i 1).val < 1 := (i 1).isLt
  have hN : cfg4.N = 8 := N_4
  refine ⟨⟨(i 0).val / 8192, by rw [hN]; omega⟩, flush4_2 _, ?_⟩
  rw [mem_blk]
  obtain ⟨-, -, -, -, e20, e21⟩ := idx_facts ⟨(i 0).val / 8192, by rw [hN]; omega⟩
  intro a
  match a with
  | ⟨0, _⟩ => show win4_2.index _ (0 : Fin 2) * 8192 ≤ (i 0).val ∧ (i 0).val < win4_2.index _ (0 : Fin 2) * 8192 + 8192; rw [e20]; show (i 0).val / 8192 * 8192 ≤ (i 0).val ∧ (i 0).val < (i 0).val / 8192 * 8192 + 8192; omega
  | ⟨1, _⟩ => show win4_2.index _ (1 : Fin 2) * 1 ≤ (i 1).val ∧ (i 1).val < win4_2.index _ (1 : Fin 2) * 1 + 1; rw [e21]; omega

/-- The result column after the region: the score of the operand arrays as the region finds them. -/
theorem out_eq (c : Dev nD) :
    (dat4 V c).arrAt 2 cfg4.N
      = Cert.Spec.rowScore (V c main_v103 : S65536x64.Idx → EReal) (V c main_v110 : S65536x64.Idx → EReal) :=
  (dat4 V c).arrAt_eq_of_cover 2 _ (fun t _ => flushed_eq V c t) cover

end Cert.KernelIdeal.Region4

end
-- ==== Proof.Host0a.lean ====
/-
  The first stretch of host operations, read at three of its buffers: the per-edge normalisation and the two
  vectors of column weights are the reference's stages of the edge index arrays the stretch starts from.
-/
import proofs.«137178_j90391881711984_2_alg».proof.Proof.Gen.KernelIdeal.Launch
import proofs.«137178_j90391881711984_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
/-- The per-edge normalisation 1/√((deg_a + ε)(deg_p + ε)). -/
theorem h0_v36 : StableHlo.after hostOps0 W (Proc.devRef .tc main_v36)
    = Cert.ReferenceIdeal.Read.val_main_v38 (F := Ideal) (W (Proc.devRef .tc main_arg4)) (W (Proc.devRef .tc main_arg5)) := by
  dsimp only [hostOps0]
  after_results_simp
  rfl

set_option maxHeartbeats 4000000 in
/-- The author weights 1 − deg / (deg + ε). -/
theorem h0_v11 : StableHlo.after hostOps0 W (Proc.devRef .tc main_v11)
    = Cert.ReferenceIdeal.Read.val_main_v11 (F := Ideal) (W (Proc.devRef .tc main_arg4)) := by
  dsimp only [hostOps0]
  after_results_simp
  rfl

set_option maxHeartbeats 4000000 in
/-- The paper weights 1 − deg / (deg + ε). -/
theorem h0_v16 : StableHlo.after hostOps0 W (Proc.devRef .tc main_v16)
    = Cert.ReferenceIdeal.Read.val_main_v17 (F := Ideal) (W (Proc.devRef .tc main_arg5)) := by
  dsimp only [hostOps0]
  after_results_simp
  rfl

end Cert.KernelIdeal.Host

end
-- ==== Proof.Host0b.lean ====
/-
  The first stretch of host operations, read at the two buffers the first region takes from it: the messages
  aggregated onto the papers, and the paper weights reshaped to a column.
-/
import proofs.«137178_j90391881711984_2_alg».proof.Proof.Gen.KernelIdeal.Launch
import proofs.«137178_j90391881711984_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
/-- The author features gathered along the edges, scaled by the normalisation and summed onto the papers. -/
theorem h0_v49 : StableHlo.after hostOps0 W (Proc.devRef .tc main_v49)
    = Cert.ReferenceIdeal.Read.val_main_v53 (F := Ideal) (W (Proc.devRef .tc main_arg0)) (W (Proc.devRef .tc main_arg4)) (W (Proc.devRef .tc main_arg5)) := by
  dsimp only [hostOps0]
  after_results_simp
  rfl

set_option maxHeartbeats 4000000 in
/-- The paper weights as a column. -/
theorem h0_v50 : StableHlo.after hostOps0 W (Proc.devRef .tc main_v50)
    = shapeCast S150000x1 (Cert.ReferenceIdeal.Read.val_main_v17 (F := Ideal) (W (Proc.devRef .tc main_arg5))) shapeCasts_S150000_S150000x1 := by
  dsimp only [hostOps0]
  after_results_simp
  rfl

end Cert.KernelIdeal.Host

end
-- ==== Proof.Host1.lean ====
/-
  The second stretch of host operations (between the first two regions): the paper features gathered along
  the edges, scaled and summed onto the authors, and the author weights as a column — from contents that hold
  the arguments and the normalisation.
-/
import proofs.«137178_j90391881711984_2_alg».proof.Proof.Gen.KernelIdeal.Launch
import proofs.«137178_j90391881711984_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
theorem h1_v64 (a1 : (⟨S150000x64, .f32⟩ : BufTy).Contents (Elt Ideal)) (a4 a5 : (⟨S3200000, .i32⟩ : BufTy).Contents (Elt Ideal))
    (h1 : W (Proc.devRef .tc main_arg1) = a1) (h4 : W (Proc.devRef .tc main_arg4) = a4) (h5 : W (Proc.devRef .tc main_arg5) = a5)
    (h36 : W (Proc.devRef .tc main_v36) = Cert.ReferenceIdeal.Read.val_main_v38 (F := Ideal) a4 a5) :
    StableHlo.after hostOps1 W (Proc.devRef .tc main_v64) = Cert.ReferenceIdeal.Read.val_main_v69 (F := Ideal) a1 a4 a5 := by
  dsimp only [hostOps1]
  after_results_simp
  rw [h1, h4, h5, h36]
  rfl

theorem h1_v65 (u : (⟨S100000, .f32⟩ : BufTy).Contents (Elt Ideal)) (h11 : W (Proc.devRef .tc main_v11) = u) :
    StableHlo.after hostOps1 W (Proc.devRef .tc main_v65) = shapeCast S100000x1 u shapeCasts_S100000_S100000x1 := by
  dsimp only [hostOps1]
  after_results_simp
  rw [h11]
  rfl

end Cert.KernelIdeal.Host

end
-- ==== Proof.Host2.lean ====
/-
  The third stretch of host operations (before the third region): the second layer's two aggregates, over the
  first layer's node tables, and the author weights as a column.
-/
import proofs.«137178_j90391881711984_2_alg».proof.Proof.Gen.KernelIdeal.Launch
import proofs.«137178_j90391881711984_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
theorem h2_v79 (a0 : (⟨S100000x64, .f32⟩ : BufTy).Contents (Elt Ideal)) (a1 : (⟨S150000x64, .f32⟩ : BufTy).Contents (Elt Ideal)) (a4 a5 : (⟨S3200000, .i32⟩ : BufTy).Contents (Elt Ideal))
    (h4 : W (Proc.devRef .tc main_arg4) = a4) (h5 : W (Proc.devRef .tc main_arg5) = a5)
    (h36 : W (Proc.devRef .tc main_v36) = Cert.ReferenceIdeal.Read.val_main_v38 (F := Ideal) a4 a5)
    (h66 : W (Proc.devRef .tc main_v66) = Cert.ReferenceIdeal.Read.val_main_v70 (F := Ideal) a0 a1 a4 a5) :
    StableHlo.after hostOps2 W (Proc.devRef .tc main_v79) = Cert.ReferenceIdeal.Read.val_main_v85 (F := Ideal) a0 a1 a4 a5 := by
  dsimp only [hostOps2]
  after_results_simp
  rw [h4, h5, h36, h66]
  rfl

set_option maxHeartbeats 4000000 in
theorem h2_v92 (a0 : (⟨S100000x64, .f32⟩ : BufTy).Contents (Elt Ideal)) (a1 : (⟨S150000x64, .f32⟩ : BufTy).Contents (Elt Ideal)) (a4 a5 : (⟨S3200000, .i32⟩ : BufTy).Contents (Elt Ideal))
    (h4 : W (Proc.devRef .tc main_arg4) = a4) (h5 : W (Proc.devRef .tc main_arg5) = a5)
    (h36 : W (Proc.devRef .tc main_v36) = Cert.ReferenceIdeal.Read.val_main_v38 (F := Ideal) a4 a5)
    (h51 : W (Proc.devRef .tc main_v51) = Cert.ReferenceIdeal.Read.val_main_v54 (F := Ideal) a0 a1 a4 a5) :
    StableHlo.after hostOps2 W (Proc.devRef .tc main_v92) = Cert.ReferenceIdeal.Read.val_main_v101 (F := Ideal) a0 a1 a4 a5 := by
  dsimp only [hostOps2]
  after_results_simp
  rw [h4, h5, h36, h51]
  rfl

theorem h2_v93 (u : (⟨S100000, .f32⟩ : BufTy).Contents (Elt Ideal)) (h11 : W (Proc.devRef .tc main_v11) = u) :
    StableHlo.after hostOps2 W (Proc.devRef .tc main_v93) = shapeCast S100000x1 u shapeCasts_S100000_S100000x1 := by
  dsimp only [hostOps2]
  after_results_simp
  rw [h11]
  rfl

/-- The one operation between the third and fourth regions: the paper weights as a column. -/
theorem h3_v95 (u : (⟨S150000, .f32⟩ : BufTy).Contents (Elt Ideal)) (h16 : W (Proc.devRef .tc main_v16) = u) :
    StableHlo.after hostOps3 W (Proc.devRef .tc main_v95) = shapeCast S150000x1 u shapeCasts_S150000_S150000x1 := by
  dsimp only [hostOps3]
  after_results_simp
  rw [h16]
  rfl

end Cert.KernelIdeal.Host

end
-- ==== Proof.Host4.lean ====
/-
  The stretch before the scoring region: the rows of the two final node tables gathered at the batch's indices;
  and the one operation after it: the score column as a vector.
-/
import proofs.«137178_j90391881711984_2_alg».proof.Proof.Gen.KernelIdeal.Launch
import proofs.«137178_j90391881711984_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (W : Valuation τ sig (Elt Ideal))

theorem h4_v103 (a0 : (⟨S100000x64, .f32⟩ : BufTy).Contents (Elt Ideal)) (a1 : (⟨S150000x64, .f32⟩ : BufTy).Contents (Elt Ideal)) (a2 : (⟨S65536, .i32⟩ : BufTy).Contents (Elt Ideal)) (a4 a5 : (⟨S3200000, .i32⟩ : BufTy).Contents (Elt Ideal))
    (h2 : W (Proc.devRef .tc main_arg2) = a2) (h94 : W (Proc.devRef .tc main_v94) = Cert.ReferenceIdeal.Read.val_main_v104 (F := Ideal) a0 a1 a4 a5) :
    StableHlo.after hostOps4 W (Proc.devRef .tc main_v103) = Cert.ReferenceIdeal.Read.val_main_v113 (F := Ideal) a0 a1 a2 a4 a5 := by
  dsimp only [hostOps4]
  after_results_simp
  rw [h2, h94]
  rfl

theorem h4_v110 (a0 : (⟨S100000x64, .f32⟩ : BufTy).Contents (Elt Ideal)) (a1 : (⟨S150000x64, .f32⟩ : BufTy).Contents (Elt Ideal)) (a3 : (⟨S65536, .i32⟩ : BufTy).Contents (Elt Ideal)) (a4 a5 : (⟨S3200000, .i32⟩ : BufTy).Contents (Elt Ideal))
    (h3 : W (Proc.devRef .tc main_arg3) = a3) (h96 : W (Proc.devRef .tc main_v96) = Cert.ReferenceIdeal.Read.val_main_v106 (F := Ideal) a0 a1 a4 a5) :
    StableHlo.after hostOps4 W (Proc.devRef .tc main_v110) = Cert.ReferenceIdeal.Read.val_main_v120 (F := Ideal) a0 a1 a3 a4 a5 := by
  dsimp only [hostOps4]
  after_results_simp
  rw [h3, h96]
  rfl

theorem h5_v112 (s : (⟨S65536x1, .f32⟩ : BufTy).Contents (Elt Ideal)) (h111 : W (Proc.devRef .tc main_v111) = s) :
    StableHlo.after hostOps5 W (Proc.devRef .tc main_v112) = shapeCast S65536 s shapeCasts_S65536x1_S65536 := by
  dsimp only [hostOps5]
  after_results_simp
  rw [h111]
  rfl

end Cert.KernelIdeal.Host

end
-- ==== Proof.RefBridge.lean ====
/-
  The reference's stages met by the three row-wise functions of whole arrays.

  The reference computes a layer's node table as  (the column weight broadcast along the row) · base + agg,
  with the weight vector first broadcast to a column; the kernel's region reads the weight vector reshaped to a
  column.  At an index (r, q) both read the weight's entry r, so the reference's stage is `rowScaleAdd` of its
  operand stages.  The reference's score is 1 / (1 + exp (−Σ_k a (r, k) · p (r, k))) with a zero initial value
  for the sum: the logistic function of the row's inner product, which is `rowScore` read as a vector.
-/
import proofs.«137178_j90391881711984_2_alg».proof.Proof.Gen.ReferenceIdeal.Read
import proofs.«137178_j90391881711984_2_alg».proof.Proof.Spec
import proofs.«137178_j90391881711984_2_alg».proof.Proof.LibRows
import proofs.«137178_j90391881711984_2_alg».proof.Proof.Algebra
import Idealize.ShloMosaic.Lib.Pipeline.Value
import Idealize.ShloMosaic.Lib.ValueIdx

noncomputable section

open scoped BigOperators
open Idealize.ShloMosaic Idealize.ShloMosaic.ValueIdx

namespace Cert.RefBridge

open Cert.ReferenceIdeal Cert.ReferenceIdeal.Read

variable (x0 : (⟨S100000x64, .f32⟩ : BufTy).Contents (Elt Ideal)) (x1 : (⟨S150000x64, .f32⟩ : BufTy).Contents (Elt Ideal))
  (x2 x3 : (⟨S65536, .i32⟩ : BufTy).Contents (Elt Ideal)) (x4 x5 : (⟨S3200000, .i32⟩ : BufTy).Contents (Elt Ideal))

/-- The paper table after the first layer: the reference's stage is the row-scaled sum of the paper
    embeddings, the paper weights as a column, and the messages aggregated onto the papers. -/
theorem p1_eq (h : S150000.ShapeCasts S150000x1) :
    Cert.Spec.rowScaleAdd (x1 : S150000x64.Idx → EReal) (shapeCast S150000x1 (val_main_v17 (F := Ideal) x5) h)
        (val_main_v53 (F := Ideal) x0 x4 x5)
      = val_main_v54 (F := Ideal) x0 x1 x4 x5 := by
  funext i
  obtain ⟨r, q, rfl⟩ : ∃ (r : Fin 150000) (q : Fin 64), i = ix2 r q := ⟨i 0, i 1, eq_ix2 i⟩
  rw [Cert.Spec.rowScaleAdd_ix2, Cert.LibRows.shapeCast_a_a1_apply]
  rw [val_main_v54_apply, val_main_v50_apply, val_main_v49_apply, val_main_v18_apply]
  have e : idx_main_v18 (idx_main_v49 (ix2 r q : S150000x64.Idx)) = ix1 r :=
    funext fun a => Fin.ext (by match a with | ⟨0, _⟩ => rfl)
  rw [e]
  rfl

/-- The author table after the first layer, likewise. -/
theorem a1_eq (h : S100000.ShapeCasts S100000x1) :
    Cert.Spec.rowScaleAdd (x0 : S100000x64.Idx → EReal) (shapeCast S100000x1 (val_main_v11 (F := Ideal) x4) h)
        (val_main_v69 (F := Ideal) x1 x4 x5)
      = val_main_v70 (F := Ideal) x0 x1 x4 x5 := by
  funext i
  obtain ⟨r, q, rfl⟩ : ∃ (r : Fin 100000) (q : Fin 64), i = ix2 r q := ⟨i 0, i 1, eq_ix2 i⟩
  rw [Cert.Spec.rowScaleAdd_ix2, Cert.LibRows.shapeCast_a_a1_apply]
  rw [val_main_v70_apply, val_main_v66_apply, val_main_v65_apply, val_main_v12_apply]
  have e : idx_main_v12 (idx_main_v65 (ix2 r q : S100000x64.Idx)) = ix1 r :=
    funext fun a => Fin.ext (by match a with | ⟨0, _⟩ => rfl)
  rw [e]
  rfl

/-- The score: the column of logistic row products, read as a vector, is the reference's last stage. -/
theorem score_eq (h : S65536x1.ShapeCasts S65536) :
    shapeCast S65536 (Cert.Spec.rowScore (val_main_v113 (F := Ideal) x0 x1 x2 x4 x5 : S65536x64.Idx → EReal)
        (val_main_v120 (F := Ideal) x0 x1 x3 x4 x5)) h
      = val_main_v128 (F := Ideal) x0 x1 x2 x3 x4 x5 := by
  funext i
  obtain ⟨r, rfl⟩ : ∃ r : Fin 65536, i = ix1 r := ⟨i 0, eq_ix1 i⟩
  refine (shapeCast_apply _ h (ix1 r) (ix2 r (0 : Fin 1)) (by
    rw [Shape.rowMajor_val_two, Shape.rowMajor_val_one]
    show r.val * 1 + 0 = r.val
    omega)).trans ?_
  rw [Cert.Spec.rowScore_ix2]
  rw [val_main_v128_apply, val_main_v127_apply, val_main_cst_29_apply, val_main_v126_apply, val_main_v125_apply,
    val_main_cst_28_apply, val_main_v124_apply, val_main_v123_apply, val_main_v122_apply, val_main_cst_27_apply]
  show Ideal.logistic _ = Ideal.div (Ideal.ofBits .f32 0x3F800000#32)
    (Ideal.ofBits .f32 0x3F800000#32 + Ideal.exp (-(Ideal.ofBits .f32 0x00000000#32 + ∑ k : Fin 64, _)))
  rw [Cert.Alg.one_bits, Ideal.ofBits_zero_f32, zero_add]
  unfold Ideal.logistic
  refine congrArg (fun s => Ideal.div 1 (1 + Ideal.exp (-s))) (Finset.sum_congr rfl fun k _ => ?_)
  rw [val_main_v121_apply]
  have e : idx_main_v122 (ix1 r : S65536.Idx) k = ix2 r k :=
    funext fun a => Fin.ext (by match a with | ⟨0, _⟩ => rfl | ⟨1, _⟩ => rfl)
  rw [e]
  rfl

end Cert.RefBridge

end
-- ==== Proof.LibCount.lean ====
/-
  Counting the updates that land on each element of a scatter.

  A scatter whose body adds, run over an operand of zeros with every update equal to one, leaves at
  each element the number of update indices whose result index is that element.  In 32-bit integers
  the scatter is a left fold over the update indices in row-major order; as long as the number of
  update elements is below `2 ^ 31` the count read back as a signed integer is the count itself.  In
  the extended reals the accumulating scatter is the operand plus a finite sum of ones, which is the
  same count.  Hence the integer result, converted to a real, is the extended-real result.
-/
import Idealize.ShloMosaic.PureOps.Ideal
import Idealize.ShloMosaic.PureOps.ShapeOps
import Idealize.ShloMosaic.PureOps.Dims

noncomputable section

open scoped BigOperators

namespace Cert.LibCount

open Idealize.ShloMosaic

/-- A left fold whose step `n` adds `upd' n = 1` to the element `g n` (when there is one) and leaves
    every other element alone: element `i` ends as its starting value plus the number of steps `n` of
    the list with `g n = some i`. -/
theorem foldl_add_ones {K : ℕ} {ι : Type} [DecidableEq ι] (g : Fin K → Option ι)
    (upd' : Fin K → BitVec 32) (h1 : ∀ n, upd' n = 1#32)
    (step : (ι → BitVec 32) → Fin K → ι → BitVec 32)
    (hhit : ∀ r n k, g n = some k → step r n k = r k + upd' n)
    (hmiss : ∀ r n k i', g n = some k → i' ≠ k → step r n i' = r i')
    (hnone : ∀ r n, g n = none → step r n = r) (i : ι) :
    ∀ (l : List (Fin K)) (r : ι → BitVec 32),
      (l.foldl step r) i = r i + BitVec.ofNat 32 (l.countP (fun n => decide (g n = some i))) := by
  intro l
  induction l with
  | nil => intro r; simp
  | cons n l ih =>
    intro r
    rw [List.foldl_cons, ih, List.countP_cons]
    cases hg : g n with
    | none => rw [hnone r n hg]; simp
    | some k =>
      by_cases hk : i = k
      · subst hk
        rw [hhit r n i hg, h1]
        simp only [decide_true, if_true]
        rw [BitVec.add_assoc]
        congr 1
        rw [Nat.add_comm]
        simp [BitVec.ofNat_add]
      · have hk' : ¬ (some k = some i) := fun e => hk (Option.some.inj e).symm
        rw [hmiss r n k i hg hk]
        simp [hk']

/-- Counting along `List.finRange K` is the cardinality of the filtered universe of `Fin K`. -/
theorem countP_finRange (K : ℕ) (p : Fin K → Prop) [DecidablePred p] :
    (List.finRange K).countP (fun n => decide (p n)) = (Finset.univ.filter p).card := by
  rw [Fin.univ_def]
  simp [Finset.filter, Finset.card, Multiset.countP_eq_card_filter, List.countP_eq_length_filter]

/-- Re-indexing the update indices by their row-major position keeps the count. -/
theorem card_filter_rowMajor {u : Shape} {ι : Type} [DecidableEq ι] (g : u.Idx → Option ι) (i : ι) :
    (Finset.univ.filter (fun n : Fin u.numel => g (u.rowMajor.symm n) = some i)).card
      = (Finset.univ.filter (fun j : u.Idx => g j = some i)).card := by
  refine Finset.card_equiv u.rowMajor.symm (fun n => ?_)
  simp

/-- A count below `2 ^ 31`, added to zero in 32 bits and read back signed, is itself. -/
theorem toInt_zero_add_ofNat {c : ℕ} (h : c < 2 ^ 31) : (0#32 + BitVec.ofNat 32 c).toInt = (c : ℤ) := by
  rw [BitVec.zero_add, BitVec.toInt_ofNat']
  apply Int.bmod_eq_of_le <;> omega

/-- The integer scatter-add of ones into zeros: each element holds, as a signed integer, the number
    of update indices whose result index it is, provided the update has fewer than `2 ^ 31` elements. -/
theorem toInt_scatter_ones {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31) (i : s.Idx) :
    (Host.scatter d IntOp.addi x idx upd i).toInt
      = ((Finset.univ.filter (fun j : u.Idx => d.resultIdx? j idx = some i)).card : ℤ) := by
  have hfold : Host.scatter d IntOp.addi x idx upd i
      = x i + BitVec.ofNat 32 ((List.finRange u.numel).countP
          (fun n => decide (d.resultIdx? (u.rowMajor.symm n) idx = some i))) :=
by
    unfold Host.scatter
    refine foldl_add_ones (fun n => d.resultIdx? (u.rowMajor.symm n) idx)
      (fun n => upd (u.rowMajor.symm n)) (fun n => hupd _) _ ?_ ?_ ?_ i (List.finRange u.numel) x
    · intro r n k h
      have h' : d.resultIdx? (u.rowMajor.symm n) idx = some k := h
      simp [h', IntOp.addi]
    · intro r n k i' h hne
      have h' : d.resultIdx? (u.rowMajor.symm n) idx = some k := h
      simp [h', hne]
    · intro r n h
      have h' : d.resultIdx? (u.rowMajor.symm n) idx = none := h
      simp [h']
  have hcount : (List.finRange u.numel).countP
        (fun n => decide (d.resultIdx? (u.rowMajor.symm n) idx = some i))
      = (Finset.univ.filter (fun j : u.Idx => d.resultIdx? j idx = some i)).card := by
    rw [countP_finRange u.numel (fun n => d.resultIdx? (u.rowMajor.symm n) idx = some i)]
    exact card_filter_rowMajor (fun j => d.resultIdx? j idx) i
  have hle : (List.finRange u.numel).countP
        (fun n => decide (d.resultIdx? (u.rowMajor.symm n) idx = some i)) ≤ u.numel := by
    have := List.countP_le_length (p := fun n => decide (d.resultIdx? (u.rowMajor.symm n) idx = some i))
      (l := List.finRange u.numel)
    simpa using this
  rw [hfold, hx i, toInt_zero_add_ofNat (lt_of_le_of_lt hle hlt), hcount]

/-- `n` copies of one, summed in the extended reals, is the real number `n`. -/
theorem nsmul_one_ereal (n : ℕ) : n • (1 : EReal) = ((n : ℝ) : EReal) := by
  induction n with
  | zero => simp
  | succ n ih => rw [succ_nsmul, ih, Nat.cast_succ, EReal.coe_add, EReal.coe_one]

/-- The extended-real scatter-add of ones into zeros: each element holds the number of update
    indices whose result index it is. -/
theorem hostScatterAdd_ones {s si u : Shape} (d : ScatterDims s si u) {w : ℕ} (idx : IVec si w)
    (xf : s.Idx → EReal) (updf : u.Idx → EReal) (hxf : ∀ i, xf i = 0) (hupdf : ∀ j, updf j = 1)
    (i : s.Idx) :
    Ideal.hostScatterAdd d xf idx updf i
      = (((Finset.univ.filter (fun j : u.Idx => d.resultIdx? j idx = some i)).card : ℝ) : EReal) := by
  unfold Ideal.hostScatterAdd
  rw [hxf i, zero_add, Finset.sum_congr rfl (fun j _ => hupdf j), Finset.sum_const, nsmul_one_ereal]

/-- The integer count converted to a real is the extended-real count: the 32-bit scatter-add of ones
    into zeros, read signed and cast, equals the exact accumulating scatter of ones into zeros. -/
theorem sitofp_scatter_ones_eq {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31)
    (xf : s.Idx → EReal) (updf : u.Idx → EReal) (hxf : ∀ i, xf i = 0) (hupdf : ∀ j, updf j = 1)
    (i : s.Idx) :
    (((Host.scatter d IntOp.addi x idx upd i).toInt : ℝ) : EReal)
      = Ideal.hostScatterAdd d xf idx updf i := by
  rw [toInt_scatter_ones d idx x upd hx hupd hlt i, hostScatterAdd_ones d idx xf updf hxf hupdf i,
    Int.cast_natCast]

/-- The same, with the accumulating scatter spelt as the host operation at the ideal values. -/
theorem sitofp_scatter_ones_eq_host {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31)
    (xf : s.Idx → EReal) (updf : u.Idx → EReal) (hxf : ∀ i, xf i = 0) (hupdf : ∀ j, updf j = 1)
    (i : s.Idx) :
    (((Host.scatter d IntOp.addi x idx upd i).toInt : ℝ) : EReal)
      = Host.scatterAdd (F := Ideal) (φ := .f32) d xf idx updf i :=
  sitofp_scatter_ones_eq d idx x upd hx hupd hlt xf updf hxf hupdf i

end Cert.LibCount
-- ==== Proof.GateNonneg.lean ====
/-
  The two column weights of the reference are nonnegative at every index.

  Each weight is 1 − deg / (deg + ε), where `deg` is an accumulating scatter of ones into zeros: at every index a
  count n, read as the real n.  With ε a positive real, n / (n + ε) is a real in [0, 1), so the weight is
  nonnegative.
-/
import proofs.«137178_j90391881711984_2_alg».proof.Proof.Gen.ReferenceIdeal.Read
import proofs.«137178_j90391881711984_2_alg».proof.Proof.Algebra
import proofs.«137178_j90391881711984_2_alg».proof.Proof.LibCount

noncomputable section

namespace Cert.Gate

open Idealize.ShloMosaic

/-- An accumulating scatter of ones into zeros holds a count at every index, whatever the shapes and the
    dimension numbers. -/
theorem scatter_ones_count {s si u : Shape} (d : ScatterDims s si u) {w : ℕ} (idx : IVec si w)
    (xf : s.Idx → EReal) (updf : u.Idx → EReal) (hxf : ∀ i, xf i = 0) (hupdf : ∀ j, updf j = 1) (i : s.Idx) :
    ∃ n : ℕ, Host.scatterAdd (F := Ideal) (φ := .f32) d xf idx updf i = ((n : ℝ) : EReal) :=
  ⟨_, Cert.LibCount.hostScatterAdd_ones d idx xf updf hxf hupdf i⟩

open Cert.ReferenceIdeal Cert.ReferenceIdeal.Read

/-- The vector of ones is 1 at every index. -/
theorem ones_apply (j : S3200000.Idx) : (val_main_v0 (F := Ideal) j : EReal) = 1 := by
  rw [val_main_v0_apply, val_main_cst_apply]
  exact Cert.Alg.one_bits

/-- The authors' vector of zeros is 0 at every index. -/
theorem zeros_u_apply (k : S100000.Idx) : (val_main_v1 (F := Ideal) k : EReal) = 0 := by
  rw [val_main_v1_apply, val_main_cst_0_apply]
  exact Ideal.ofBits_zero_f32

/-- The papers' vector of zeros is 0 at every index. -/
theorem zeros_i_apply (k : S150000.Idx) : (val_main_v4 (F := Ideal) k : EReal) = 0 := by
  rw [val_main_v4_apply, val_main_cst_1_apply]
  exact Ideal.ofBits_zero_f32

/-- The authors' degree is a count at every index. -/
theorem deg_u (x4 : (⟨S3200000, .i32⟩ : BufTy).Contents (Elt Ideal)) (i : S100000.Idx) :
    ∃ n : ℕ, val_main_v3 (F := Ideal) x4 i = ((n : ℝ) : EReal) :=
  scatter_ones_count scatter_S100000_S3200000x1_S3200000_n_0_0_1 (val_main_v2 (F := Ideal) x4)
    (val_main_v1 (F := Ideal)) (val_main_v0 (F := Ideal)) zeros_u_apply ones_apply i

/-- The papers' degree is a count at every index. -/
theorem deg_i (x5 : (⟨S3200000, .i32⟩ : BufTy).Contents (Elt Ideal)) (i : S150000.Idx) :
    ∃ n : ℕ, val_main_v6 (F := Ideal) x5 i = ((n : ℝ) : EReal) :=
  scatter_ones_count scatter_S150000_S3200000x1_S3200000_n_0_0_1 (val_main_v5 (F := Ideal) x5)
    (val_main_v4 (F := Ideal)) (val_main_v0 (F := Ideal)) zeros_i_apply ones_apply i

/-- The authors' column weight 1 − deg / (deg + ε) is nonnegative at every index. -/
theorem usw_nonneg (x4 : (⟨S3200000, .i32⟩ : BufTy).Contents (Elt Ideal)) (i : S100000.Idx) :
    (0 : EReal) ≤ val_main_v11 (F := Ideal) x4 i := by
  obtain ⟨n, hn⟩ := deg_u x4 i
  rw [val_main_v11_apply, val_main_v10_apply, val_main_cst_3_apply, val_main_v9_apply,
    val_main_v8_apply, val_main_v7_apply, val_main_cst_2_apply, hn]
  exact Cert.Alg.gate_nonneg n

/-- The papers' column weight is nonnegative at every index, likewise. -/
theorem isw_nonneg (x5 : (⟨S3200000, .i32⟩ : BufTy).Contents (Elt Ideal)) (i : S150000.Idx) :
    (0 : EReal) ≤ val_main_v17 (F := Ideal) x5 i := by
  obtain ⟨n, hn⟩ := deg_i x5 i
  rw [val_main_v17_apply, val_main_v16_apply, val_main_cst_5_apply, val_main_v15_apply,
    val_main_v14_apply, val_main_v13_apply, val_main_cst_4_apply, hn]
  exact Cert.Alg.gate_nonneg n

end Cert.Gate

end
-- ==== Proof.RefBridge2.lean ====
/-
  The final node tables.  The reference adds the three layers,  (emb + x) + (s · x + agg),  with the gated
  self term `s · x` of the second layer spelt out; the kernel's region computes  emb + x · (1 + s) + agg.
  The two agree because the column weight `s = 1 − deg / (deg + ε)` is nonnegative at every node:
  a factor distributes over `1 + s` in the extended reals when both summands are nonnegative, whatever the
  factor is, and the rest is associativity of the sum.
-/
import proofs.«137178_j90391881711984_2_alg».proof.Proof.Gen.ReferenceIdeal.Read
import proofs.«137178_j90391881711984_2_alg».proof.Proof.Spec
import proofs.«137178_j90391881711984_2_alg».proof.Proof.LibRows
import proofs.«137178_j90391881711984_2_alg».proof.Proof.Algebra
import proofs.«137178_j90391881711984_2_alg».proof.Proof.GateNonneg
import Idealize.ShloMosaic.Lib.Pipeline.Value
import Idealize.ShloMosaic.Lib.ValueIdx

noncomputable section

open Idealize.ShloMosaic Idealize.ShloMosaic.ValueIdx

namespace Cert.RefBridge

open Cert.ReferenceIdeal Cert.ReferenceIdeal.Read

variable (x0 : (⟨S100000x64, .f32⟩ : BufTy).Contents (Elt Ideal)) (x1 : (⟨S150000x64, .f32⟩ : BufTy).Contents (Elt Ideal))
  (x4 x5 : (⟨S3200000, .i32⟩ : BufTy).Contents (Elt Ideal))

/-- The final author table: the reference's stage is the combination of the author embeddings, the first
    layer's author table, the author weights as a column and the second layer's aggregate. -/
theorem fa_eq (h : S100000.ShapeCasts S100000x1) :
    Cert.Spec.rowCombine (x0 : S100000x64.Idx → EReal) (val_main_v70 (F := Ideal) x0 x1 x4 x5)
        (shapeCast S100000x1 (val_main_v11 (F := Ideal) x4) h) (val_main_v101 (F := Ideal) x0 x1 x4 x5)
      = val_main_v104 (F := Ideal) x0 x1 x4 x5 := by
  funext i
  obtain ⟨r, q, rfl⟩ : ∃ (r : Fin 100000) (q : Fin 64), i = ix2 r q := ⟨i 0, i 1, eq_ix2 i⟩
  rw [Cert.Spec.rowCombine_ix2, Cert.LibRows.shapeCast_a_a1_apply]
  rw [val_main_v104_apply, val_main_v103_apply, val_main_v102_apply, val_main_v98_apply, val_main_v97_apply,
    val_main_v12_apply]
  have e : idx_main_v12 (idx_main_v97 (ix2 r q : S100000x64.Idx)) = ix1 r :=
    funext fun a => Fin.ext (by match a with | ⟨0, _⟩ => rfl)
  rw [e]
  exact Cert.Alg.combine _ _ _ _ (Cert.Gate.usw_nonneg x4 (ix1 r))

/-- The final paper table, likewise. -/
theorem fp_eq (h : S150000.ShapeCasts S150000x1) :
    Cert.Spec.rowCombine (x1 : S150000x64.Idx → EReal) (val_main_v54 (F := Ideal) x0 x1 x4 x5)
        (shapeCast S150000x1 (val_main_v17 (F := Ideal) x5) h) (val_main_v85 (F := Ideal) x0 x1 x4 x5)
      = val_main_v106 (F := Ideal) x0 x1 x4 x5 := by
  funext i
  obtain ⟨r, q, rfl⟩ : ∃ (r : Fin 150000) (q : Fin 64), i = ix2 r q := ⟨i 0, i 1, eq_ix2 i⟩
  rw [Cert.Spec.rowCombine_ix2, Cert.LibRows.shapeCast_a_a1_apply]
  rw [val_main_v106_apply, val_main_v105_apply, val_main_v86_apply, val_main_v82_apply, val_main_v81_apply,
    val_main_v18_apply]
  have e : idx_main_v18 (idx_main_v81 (ix2 r q : S150000x64.Idx)) = ix1 r :=
    funext fun a => Fin.ext (by match a with | ⟨0, _⟩ => rfl)
  rw [e]
  exact Cert.Alg.combine _ _ _ _ (Cert.Gate.isw_nonneg x5 (ix1 r))

end Cert.RefBridge

end
-- ==== Proof.Fold.lean ====
/-
  The buffer contents at the eleven segment boundaries of the idealized kernel, read at the buffers that
  matter, as the reference's stages of the argument arrays.

  Boundary k's contents are a fold: a stretch of host operations rewrites the buffers it writes and keeps the
  rest; a region leaves its output array at what its grid points wrote back and keeps every other buffer.
  Each value is taken where it is made — the edge normalisation and the two weight vectors in the first
  stretch, each layer's node tables in their regions (where the block-by-block result is the reference's
  row-wise stage), the aggregates in the host scatters between them — and carried to where it is read by the
  fact that nothing in between writes it.  The last boundary then holds the three results at the reference's
  last stages.
-/
import proofs.«137178_j90391881711984_2_alg».proof.Proof.Gen.KernelIdeal.Frame
import proofs.«137178_j90391881711984_2_alg».proof.Proof.Gen.ReferenceIdeal.Read
import proofs.«137178_j90391881711984_2_alg».proof.Proof.Walk
import proofs.«137178_j90391881711984_2_alg».proof.Proof.Region0
import proofs.«137178_j90391881711984_2_alg».proof.Proof.Region1
import proofs.«137178_j90391881711984_2_alg».proof.Proof.Region2
import proofs.«137178_j90391881711984_2_alg».proof.Proof.Region3
import proofs.«137178_j90391881711984_2_alg».proof.Proof.Region4
import proofs.«137178_j90391881711984_2_alg».proof.Proof.Host0a
import proofs.«137178_j90391881711984_2_alg».proof.Proof.Host0b
import proofs.«137178_j90391881711984_2_alg».proof.Proof.Host1
import proofs.«137178_j90391881711984_2_alg».proof.Proof.Host2
import proofs.«137178_j90391881711984_2_alg».proof.Proof.Host4
import proofs.«137178_j90391881711984_2_alg».proof.Proof.RefBridge
import proofs.«137178_j90391881711984_2_alg».proof.Proof.RefBridge2

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The first stretch: degrees, weights, the normalisation, the first aggregate -/

theorem B1_v36 : W1 m ρ c (Proc.devRef .tc main_v36) = (Cert.ReferenceIdeal.Read.val_main_v38 (F := Ideal) (m ((c.tc : Thread nD τ).loc main_arg4)) (m ((c.tc : Thread nD τ).loc main_arg5))) := Host.h0_v36 (W0 m ρ c)
theorem B1_v11 : W1 m ρ c (Proc.devRef .tc main_v11) = (Cert.ReferenceIdeal.Read.val_main_v11 (F := Ideal) (m ((c.tc : Thread nD τ).loc main_arg4))) := Host.h0_v11 (W0 m ρ c)
theorem B1_v16 : W1 m ρ c (Proc.devRef .tc main_v16) = (Cert.ReferenceIdeal.Read.val_main_v17 (F := Ideal) (m ((c.tc : Thread nD τ).loc main_arg5))) := Host.h0_v16 (W0 m ρ c)
theorem B1_v49 : W1 m ρ c (Proc.devRef .tc main_v49) = (Cert.ReferenceIdeal.Read.val_main_v53 (F := Ideal) (m ((c.tc : Thread nD τ).loc main_arg0)) (m ((c.tc : Thread nD τ).loc main_arg4)) (m ((c.tc : Thread nD τ).loc main_arg5))) := Host.h0_v49 (W0 m ρ c)
theorem B1_v50 : W1 m ρ c (Proc.devRef .tc main_v50) = shapeCast S150000x1 (Cert.ReferenceIdeal.Read.val_main_v17 (F := Ideal) (m ((c.tc : Thread nD τ).loc main_arg5))) shapeCasts_S150000_S150000x1 :=
  Host.h0_v50 (W0 m ρ c)

/-! ## The first region: the papers' table after one layer -/

theorem B2_v51 : W2 m ρ c (Proc.devRef .tc main_v51) = (Cert.ReferenceIdeal.Read.val_main_v54 (F := Ideal) (m ((c.tc : Thread nD τ).loc main_arg0)) (m ((c.tc : Thread nD τ).loc main_arg1)) (m ((c.tc : Thread nD τ).loc main_arg4)) (m ((c.tc : Thread nD τ).loc main_arg5))) :=
  (W2_arr m ρ c 3).trans ((Region0.out_eq (V1 m ρ) c).trans (by
    show Cert.Spec.rowScaleAdd (W1 m ρ c (Proc.devRef .tc main_arg1) : S150000x64.Idx → EReal) (W1 m ρ c (Proc.devRef .tc main_v50)) (W1 m ρ c (Proc.devRef .tc main_v49)) = _
    rw [Walk.arg1_1_0 m ρ c, B1_v50 m ρ c, B1_v49 m ρ c]
    exact Cert.RefBridge.p1_eq _ _ _ _ _))

/-! ## The second stretch and region: the authors' table after one layer -/

theorem B3_v64 : W3 m ρ c (Proc.devRef .tc main_v64) = (Cert.ReferenceIdeal.Read.val_main_v69 (F := Ideal) (m ((c.tc : Thread nD τ).loc main_arg1)) (m ((c.tc : Thread nD τ).loc main_arg4)) (m ((c.tc : Thread nD τ).loc main_arg5))) :=
  Host.h1_v64 (W2 m ρ c) _ _ _ (Walk.arg1_2_0 m ρ c) (Walk.arg4_2_0 m ρ c) (Walk.arg5_2_0 m ρ c)
    ((Walk.v36_2_1 m ρ c).trans (B1_v36 m ρ c))

theorem B3_v65 : W3 m ρ c (Proc.devRef .tc main_v65) = shapeCast S100000x1 (Cert.ReferenceIdeal.Read.val_main_v11 (F := Ideal) (m ((c.tc : Thread nD τ).loc main_arg4))) shapeCasts_S100000_S100000x1 :=
  Host.h1_v65 (W2 m ρ c) _ ((Walk.v11_2_1 m ρ c).trans (B1_v11 m ρ c))

theorem B4_v66 : W4 m ρ c (Proc.devRef .tc main_v66) = (Cert.ReferenceIdeal.Read.val_main_v70 (F := Ideal) (m ((c.tc : Thread nD τ).loc main_arg0)) (m ((c.tc : Thread nD τ).loc main_arg1)) (m ((c.tc : Thread nD τ).loc main_arg4)) (m ((c.tc : Thread nD τ).loc main_arg5))) :=
  (W4_arr m ρ c 3).trans ((Region1.out_eq (V3 m ρ) c).trans (by
    show Cert.Spec.rowScaleAdd (W3 m ρ c (Proc.devRef .tc main_arg0) : S100000x64.Idx → EReal) (W3 m ρ c (Proc.devRef .tc main_v65)) (W3 m ρ c (Proc.devRef .tc main_v64)) = _
    rw [Walk.arg0_3_0 m ρ c, B3_v65 m ρ c, B3_v64 m ρ c]
    exact Cert.RefBridge.a1_eq _ _ _ _ _))

/-! ## The third stretch: the second layer's aggregates -/

theorem B5_v79 : W5 m ρ c (Proc.devRef .tc main_v79) = (Cert.ReferenceIdeal.Read.val_main_v85 (F := Ideal) (m ((c.tc : Thread nD τ).loc main_arg0)) (m ((c.tc : Thread nD τ).loc main_arg1)) (m ((c.tc : Thread nD τ).loc main_arg4)) (m ((c.tc : Thread nD τ).loc main_arg5))) :=
  Host.h2_v79 (W4 m ρ c) _ _ _ _ (Walk.arg4_4_0 m ρ c) (Walk.arg5_4_0 m ρ c)
    ((Walk.v36_4_1 m ρ c).trans (B1_v36 m ρ c)) (B4_v66 m ρ c)

theorem B5_v92 : W5 m ρ c (Proc.devRef .tc main_v92) = (Cert.ReferenceIdeal.Read.val_main_v101 (F := Ideal) (m ((c.tc : Thread nD τ).loc main_arg0)) (m ((c.tc : Thread nD τ).loc main_arg1)) (m ((c.tc : Thread nD τ).loc main_arg4)) (m ((c.tc : Thread nD τ).loc main_arg5))) :=
  Host.h2_v92 (W4 m ρ c) _ _ _ _ (Walk.arg4_4_0 m ρ c) (Walk.arg5_4_0 m ρ c)
    ((Walk.v36_4_1 m ρ c).trans (B1_v36 m ρ c)) ((Walk.v51_4_2 m ρ c).trans (B2_v51 m ρ c))

theorem B5_v93 : W5 m ρ c (Proc.devRef .tc main_v93) = shapeCast S100000x1 (Cert.ReferenceIdeal.Read.val_main_v11 (F := Ideal) (m ((c.tc : Thread nD τ).loc main_arg4))) shapeCasts_S100000_S100000x1 :=
  Host.h2_v93 (W4 m ρ c) _ ((Walk.v11_4_1 m ρ c).trans (B1_v11 m ρ c))

/-! ## The third and fourth regions: the final node tables -/

theorem B6_v94 : W6 m ρ c (Proc.devRef .tc main_v94) = (Cert.ReferenceIdeal.Read.val_main_v104 (F := Ideal) (m ((c.tc : Thread nD τ).loc main_arg0)) (m ((c.tc : Thread nD τ).loc main_arg1)) (m ((c.tc : Thread nD τ).loc main_arg4)) (m ((c.tc : Thread nD τ).loc main_arg5))) :=
  (W6_arr m ρ c 4).trans ((Region2.out_eq (V5 m ρ) c).trans (by
    show Cert.Spec.rowCombine (W5 m ρ c (Proc.devRef .tc main_arg0) : S100000x64.Idx → EReal) (W5 m ρ c (Proc.devRef .tc main_v66)) (W5 m ρ c (Proc.devRef .tc main_v93)) (W5 m ρ c (Proc.devRef .tc main_v92)) = _
    rw [Walk.arg0_5_0 m ρ c, (Walk.v66_5_4 m ρ c).trans (B4_v66 m ρ c), B5_v93 m ρ c, B5_v92 m ρ c]
    exact Cert.RefBridge.fa_eq _ _ _ _ _))

theorem B7_v95 : W7 m ρ c (Proc.devRef .tc main_v95) = shapeCast S150000x1 (Cert.ReferenceIdeal.Read.val_main_v17 (F := Ideal) (m ((c.tc : Thread nD τ).loc main_arg5))) shapeCasts_S150000_S150000x1 :=
  Host.h3_v95 (W6 m ρ c) _ ((Walk.v16_6_1 m ρ c).trans (B1_v16 m ρ c))

theorem B8_v96 : W8 m ρ c (Proc.devRef .tc main_v96) = (Cert.ReferenceIdeal.Read.val_main_v106 (F := Ideal) (m ((c.tc : Thread nD τ).loc main_arg0)) (m ((c.tc : Thread nD τ).loc main_arg1)) (m ((c.tc : Thread nD τ).loc main_arg4)) (m ((c.tc : Thread nD τ).loc main_arg5))) :=
  (W8_arr m ρ c 4).trans ((Region3.out_eq (V7 m ρ) c).trans (by
    show Cert.Spec.rowCombine (W7 m ρ c (Proc.devRef .tc main_arg1) : S150000x64.Idx → EReal) (W7 m ρ c (Proc.devRef .tc main_v51)) (W7 m ρ c (Proc.devRef .tc main_v95)) (W7 m ρ c (Proc.devRef .tc main_v79)) = _
    rw [Walk.arg1_7_0 m ρ c, (Walk.v51_7_2 m ρ c).trans (B2_v51 m ρ c), B7_v95 m ρ c, (Walk.v79_7_5 m ρ c).trans (B5_v79 m ρ c)]
    exact Cert.RefBridge.fp_eq _ _ _ _ _))

/-! ## The gathers at the batch's indices, the scoring region, and the results -/

theorem B9_v103 : W9 m ρ c (Proc.devRef .tc main_v103) = (Cert.ReferenceIdeal.Read.val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) :=
  Host.h4_v103 (W8 m ρ c) _ _ _ _ _ (Walk.arg2_8_0 m ρ c) ((Walk.v94_8_6 m ρ c).trans (B6_v94 m ρ c))

theorem B9_v110 : W9 m ρ c (Proc.devRef .tc main_v110) = (Cert.ReferenceIdeal.Read.val_main_v120 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  Host.h4_v110 (W8 m ρ c) _ _ _ _ _ (Walk.arg3_8_0 m ρ c) (B8_v96 m ρ c)

theorem B10_v111 : W10 m ρ c (Proc.devRef .tc main_v111)
    = Cert.Spec.rowScore ((Cert.ReferenceIdeal.Read.val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) : S65536x64.Idx → EReal) (Cert.ReferenceIdeal.Read.val_main_v120 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (W10_arr m ρ c 2).trans ((Region4.out_eq (V9 m ρ) c).trans (by
    show Cert.Spec.rowScore (W9 m ρ c (Proc.devRef .tc main_v103) : S65536x64.Idx → EReal) (W9 m ρ c (Proc.devRef .tc main_v110)) = _
    rw [B9_v103 m ρ c, B9_v110 m ρ c]))

/-- The first result: the score column as a vector is the reference's last stage. -/
theorem result0 : W11 m ρ c (Proc.devRef .tc main_v112) = (Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (Host.h5_v112 (W10 m ρ c) _ (B10_v111 m ρ c)).trans (Cert.RefBridge.score_eq _ _ _ _ _ _ _)

/-- The second result: the authors' final rows at the batch's indices. -/
theorem result1 : W11 m ρ c (Proc.devRef .tc main_v103) = (Cert.ReferenceIdeal.Read.val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) :=
  (Walk.v103_11_9 m ρ c).trans (B9_v103 m ρ c)

/-- The third result: the papers' final rows at the batch's indices. -/
theorem result2 : W11 m ρ c (Proc.devRef .tc main_v110) = (Cert.ReferenceIdeal.Read.val_main_v120 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (Walk.v110_11_9 m ρ c).trans (B9_v110 m ρ c)

end Cert.KernelIdeal.Fold

end
-- ==== Proof.lean ====
/-
  A two-layer bipartite graph convolution with dot-product scoring, as five tiled regions among stretches of
  host operations, against its plain array formulation — equal results over the extended reals.

  Both programs compute, from the edge lists, each node's degree, the column weight s = 1 − deg / (deg + ε) of
  its own features, and the per-edge normalisation; a layer sends each node's features along its edges, scaled,
  sums them onto the other side, and adds s times the node's own features.  The tiled program computes a
  layer's table block of rows by block (the same row-wise formula), and folds the second layer into the final
  residual sum as  emb + x · (1 + s) + agg  where the plain formulation has  (emb + x) + (s · x + agg).  These agree
  because s ≥ 0: a degree is a count, so deg / (deg + ε) lies in [0, 1), and a factor distributes over a sum of
  nonnegative terms in the extended reals whatever the factor is.  The score is the logistic function of a
  row's inner product in both, spelt 1 / (1 + exp (−·)) on one side.

  The tiled program's three frames are the generated ones, the plain program's frame is its generated run with
  the results dropped; the idealization rewrote nothing.  For the algebraic claim the tiled program's run ends
  with each result at the last segment boundary's contents (KernelRun), which are the plain program's last
  stages of the arguments (Fold), and the plain program's run ends at those stages by definition (its
  generated run and stage readings).
-/
import proofs.«137178_j90391881711984_2_alg».proof.Defs
import proofs.«137178_j90391881711984_2_alg».proof.Proof.Gen.Kernel
import proofs.«137178_j90391881711984_2_alg».proof.Proof.Gen.Kernel.Frame
import proofs.«137178_j90391881711984_2_alg».proof.Proof.Gen.KernelIdeal
import proofs.«137178_j90391881711984_2_alg».proof.Proof.Gen.KernelIdeal.Frame
import proofs.«137178_j90391881711984_2_alg».proof.Proof.Gen.ReferenceIdeal
import proofs.«137178_j90391881711984_2_alg».proof.Proof.Gen.ReferenceIdeal.Run
import proofs.«137178_j90391881711984_2_alg».proof.Proof.Gen.ReferenceIdeal.Read
import proofs.«137178_j90391881711984_2_alg».proof.Proof.Gen.Pre_finite_inputs
import proofs.«137178_j90391881711984_2_alg».proof.Proof.KernelRun
import proofs.«137178_j90391881711984_2_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both runs end with their three results at the plain program's last stages of the (agreeing) arguments. -/
theorem algebraic : Cert.algebraic_KernelIdeal_ReferenceIdeal := by
  intro m ρ m' ρ' _ hagree
  refine ⟨fun c => Cert.ReferenceIdeal.Value.res_main_v128 (F := Ideal) m' c,
    fun c => Cert.ReferenceIdeal.Value.res_main_v113 (F := Ideal) m' c,
    fun c => Cert.ReferenceIdeal.Value.res_main_v120 (F := Ideal) m' c, ?_,
    Cert.ReferenceIdeal.Value.run (F := Ideal) m' ρ'⟩
  refine (θ_run Cert.KernelIdeal.defs _ _).mono (fun _ h c => ?_) (Cert.KernelIdeal.Run.run (F := Ideal) m ρ)
  obtain ⟨h0, h1, h2, hrest⟩ := h c
  obtain ⟨e0, e1, e2, e3, e4, e5⟩ := hagree c
  refine ⟨h0.trans ?_, h1.trans ?_, h2.trans ?_, hrest⟩
  · show _ = Cert.ReferenceIdeal.Value.res_main_v128 (F := Ideal) m' c
    rw [Cert.ReferenceIdeal.Read.val_main_v128_eq, e0, e1, e2, e3, e4, e5]
    exact Cert.KernelIdeal.Fold.result0 m ρ c
  · show _ = Cert.ReferenceIdeal.Value.res_main_v113 (F := Ideal) m' c
    rw [Cert.ReferenceIdeal.Read.val_main_v113_eq, e0, e1, e2, e4, e5]
    exact Cert.KernelIdeal.Fold.result1 m ρ c
  · show _ = Cert.ReferenceIdeal.Value.res_main_v120 (F := Ideal) m' c
    rw [Cert.ReferenceIdeal.Read.val_main_v120_eq, e0, e1, e3, e4, e5]
    exact Cert.KernelIdeal.Fold.result2 m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
